-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x1024 : Shape := ⟨3, ![32, 128, 1024]⟩
abbrev S32x128x512 : Shape := ⟨3, ![32, 128, 512]⟩
abbrev S32768x1x384 : Shape := ⟨3, ![32768, 1, 384]⟩
abbrev S_ : Shape := ⟨0, ![]⟩

class Facts : Prop where
  bcast_S_S32x128x1024 : S_.BroadcastsInDim S32x128x1024 (![] : Fin 0 → Fin S32x128x1024.rank)
  reducesTo_S32x128x1024_S_d0_1_2 : S32x128x1024.ReducesTo [0, 1, 2] S_
  h_S_ : 0 < S_.numel
  bcast_S_S32x128x512 : S_.BroadcastsInDim S32x128x512 (![] : Fin 0 → Fin S32x128x512.rank)
  reducesTo_S32x128x512_S_d0_1_2 : S32x128x512.ReducesTo [0, 1, 2] S_
  bcast_S_S32768x1x384 : S_.BroadcastsInDim S32768x1x384 (![] : Fin 0 → Fin S32768x1x384.rank)
  reducesTo_S32768x1x384_S_d0_1_2 : S32768x1x384.ReducesTo [0, 1, 2] S_

variable [Facts]

def fn {F : FTy → Type} [FloatOps F] (main_arg0 : FVec F S32x128x1024 .f32) (main_arg1 : FVec F S32x128x512 .f32) (main_arg2 : FVec F S32768x1x384 .f32) : IVec S_ 1 :=
  let main_v0 : FVec F S32x128x1024 .f32 := Host.absf main_arg0
  let main_cst : FVec F S_ .f32 := constant S_ .f32 0x7F800000#32
  let main_v1 : FVec F S32x128x1024 .f32 := broadcastInDim S32x128x1024 ![] bcast_S_S32x128x1024 main_cst
  let main_v2 : IVec S32x128x1024 1 := cmpf .olt main_v0 main_v1
  let main_c : IVec S_ 1 := constantI S_ 1 1#1
  let main_v3 : IVec S_ 1 := (fun x v => Host.reduce IntOp.andi x v reducesTo_S32x128x1024_S_d0_1_2 h_S_) main_v2 main_c
  let main_v4 : FVec F S32x128x512 .f32 := Host.absf main_arg1
  let main_cst_0 : FVec F S_ .f32 := constant S_ .f32 0x7F800000#32
  let main_v5 : FVec F S32x128x512 .f32 := broadcastInDim S32x128x512 ![] bcast_S_S32x128x512 main_cst_0
  let main_v6 : IVec S32x128x512 1 := cmpf .olt main_v4 main_v5
  let main_c_1 : IVec S_ 1 := constantI S_ 1 1#1
  let main_v7 : IVec S_ 1 := (fun x v => Host.reduce IntOp.andi x v reducesTo_S32x128x512_S_d0_1_2 h_S_) main_v6 main_c_1
  let main_v8 : IVec S_ 1 := andi main_v3 main_v7
  let main_v9 : FVec F S32768x1x384 .f32 := Host.absf main_arg2
  let main_cst_2 : FVec F S_ .f32 := constant S_ .f32 0x7F800000#32
  let main_v10 : FVec F S32768x1x384 .f32 := broadcastInDim S32768x1x384 ![] bcast_S_S32768x1x384 main_cst_2
  let main_v11 : IVec S32768x1x384 1 := cmpf .olt main_v9 main_v10
  let main_c_3 : IVec S_ 1 := constantI S_ 1 1#1
  let main_v12 : IVec S_ 1 := (fun x v => Host.reduce IntOp.andi x v reducesTo_S32768x1x384_S_d0_1_2 h_S_) main_v11 main_c_3
  let main_v13 : IVec S_ 1 := andi main_v8 main_v12
  main_v13
-- ==== Kernel.lean ====
abbrev S32x128x1024 : Shape := ⟨3, ![32, 128, 1024]⟩
abbrev S32x128x512 : Shape := ⟨3, ![32, 128, 512]⟩
abbrev S32768x1x384 : Shape := ⟨3, ![32768, 1, 384]⟩
abbrev S32x1024x384 : Shape := ⟨3, ![32, 1024, 384]⟩
abbrev S32x512x1024 : Shape := ⟨3, ![32, 512, 1024]⟩
abbrev S1x128x1024 : Shape := ⟨3, ![1, 128, 1024]⟩
abbrev S1x128x512 : Shape := ⟨3, ![1, 128, 512]⟩
abbrev S1x1024x384 : Shape := ⟨3, ![1, 1024, 384]⟩
abbrev S1x512x1024 : Shape := ⟨3, ![1, 512, 1024]⟩
abbrev S128x1024 : Shape := ⟨2, ![128, 1024]⟩
abbrev S128x512 : Shape := ⟨2, ![128, 512]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S1024x256 : Shape := ⟨2, ![1024, 256]⟩
abbrev S256x512 : Shape := ⟨2, ![256, 512]⟩
abbrev S1024x512 : Shape := ⟨2, ![1024, 512]⟩
abbrev S512 : Shape := ⟨1, ![512]⟩
abbrev S1x512 : Shape := ⟨2, ![1, 512]⟩
abbrev S512x128 : Shape := ⟨2, ![512, 128]⟩

abbrev nBuf : Space → Nat
  | .hbm => 5
  | .vmem => 8
  | .smem => 0
  | _ => 0

abbrev bufTy : (tb : Table) → Fin (tcTables nBuf tb) → BufTy
  | .hbm, ⟨0, _⟩ => ⟨S32x128x1024, .f32⟩
  | .hbm, ⟨1, _⟩ => ⟨S32x128x512, .f32⟩
  | .hbm, ⟨2, _⟩ => ⟨S32768x1x384, .f32⟩
  | .hbm, ⟨3, _⟩ => ⟨S32x1024x384, .f32⟩
  | .hbm, ⟨4, _⟩ => ⟨S32x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x512, .f32⟩
  | .local _ .vmem, ⟨3, _⟩ => ⟨S1x128x512, .f32⟩
  | .local _ .vmem, ⟨4, _⟩ => ⟨S1x1024x384, .f32⟩
  | .local _ .vmem, ⟨5, _⟩ => ⟨S1x1024x384, .f32⟩
  | .local _ .vmem, ⟨6, _⟩ => ⟨S1x512x1024, .f32⟩
  | .local _ .vmem, ⟨7, _⟩ => ⟨S1x512x1024, .f32⟩
  | _, _ => ⟨S32x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32768x1x384_S32x1024x384 : S32768x1x384.ShapeCasts S32x1024x384
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  transposes_S128x1024_p1_0_S1024x128 : S128x1024.Transposes [1, 0] S1024x128
  inb_S1x1024x384_S1x1024x128_0_0_0 : ∀ a, (![0, 0, 0] : Fin 3 → Nat) a + S1x1024x128.size a ≤ S1x1024x384.size a
  h_S1x1024x128 : 0 < S1x1024x128.numel
  shapeCasts_S1x1024x128_S1024x128 : S1x1024x128.ShapeCasts S1024x128
  bitsLt_bf16_f32 : FTy.bits .bf16 < FTy.bits .f32
  inb_S1x1024x384_S1x1024x128_0_0_128 : ∀ a, (![0, 0, 128] : Fin 3 → Nat) a + S1x1024x128.size a ≤ S1x1024x384.size a
  inb_S1x1024x384_S1x1024x128_0_0_256 : ∀ a, (![0, 0, 256] : Fin 3 → Nat) a + S1x1024x128.size a ≤ S1x1024x384.size a
  reduces_S1024x128_S1024 : S1024x128.Reduces [1] S1024
  shapeCasts_S1024_S1024x1 : S1024.ShapeCasts S1024x1
  concatenates_S1024x128_S1024x128_S1024x256_d1 : Shape.Concatenates [S1024x128, S1024x128] S1024x256 1
  concatenates_S128x512_S128x512_S256x512_d0 : Shape.Concatenates [S128x512, S128x512] S256x512 0
  broadcasts_S1024x1_S1024x512 : S1024x1.Broadcasts S1024x512
  reduces_S1024x512_S1024 : S1024x512.Reduces [1] S1024
  reduces_S1024x512_S512 : S1024x512.Reduces [0] S512
  shapeCasts_S512_S1x512 : S512.ShapeCasts S1x512
  broadcasts_S1x512_S1024x512 : S1x512.Broadcasts S1024x512
  inb_S1x512x1024_S1x128x1024_0_0_0 : ∀ a, (![0, 0, 0] : Fin 3 → Nat) a + S1x128x1024.size a ≤ S1x512x1024.size a
  shapeCasts_S128x1024_S1x128x1024 : S128x1024.ShapeCasts S1x128x1024
  inb_S1x512x1024_S1x128x1024_0_128_0 : ∀ a, (![0, 128, 0] : Fin 3 → Nat) a + S1x128x1024.size a ≤ S1x512x1024.size a
  inb_S1x512x1024_S1x128x1024_0_256_0 : ∀ a, (![0, 256, 0] : Fin 3 → Nat) a + S1x128x1024.size a ≤ S1x512x1024.size a
  inb_S1x512x1024_S1x128x1024_0_384_0 : ∀ a, (![0, 384, 0] : Fin 3 → Nat) a + S1x128x1024.size a ≤ S1x512x1024.size a
  dot_S1024x256_S256x512_S1024x512_1_0_0_1_n_n_wf : DotDims.WF S1024x256 S256x512 S1024x512 [1] [0] [0] [1] [] []
  dot_S1024x512_S1024x128_S512x128_0_0_1_1_n_n_wf : DotDims.WF S1024x512 S1024x128 S512x128 [0] [0] [1] [1] [] []
  dot_S128x512_S1024x512_S128x1024_1_1_0_0_n_n_wf : DotDims.WF S128x512 S1024x512 S128x1024 [1] [1] [0] [0] [] []
  dot_S512x128_S1024x512_S128x1024_0_1_1_0_n_n_wf : DotDims.WF S512x128 S1024x512 S128x1024 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S32x128x1024.size a
  hwx0_0 : ∀ i : grid0.Coords, EltTy.bits .f32 = 32 ∨ (Rect.block (s := S32x128x1024) S1x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S32x128x512.size a
  hwx0_1 : ∀ i : grid0.Coords, EltTy.bits .f32 = 32 ∨ (Rect.block (s := S32x128x512) S1x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x384.size a ≤ S32x1024x384.size a
  hwx0_2 : ∀ i : grid0.Coords, EltTy.bits .f32 = 32 ∨ (Rect.block (s := S32x1024x384) S1x1024x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S32x512x1024.size a
  hwx0_3 : ∀ i : grid0.Coords, EltTy.bits .f32 = 32 ∨ (Rect.block (s := S32x512x1024) S1x512x1024.size (cc0_transform_3 i) (hinb0_3 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S1024x128_S512x128_0_0_1_1_n_n : DotDims S1024x512 S1024x128 S512x128 where
  lhsContracting := [0]
  rhsContracting := [0]
  lhsNonContracting := [1]
  rhsNonContracting := [1]
  lhsBatch := []
  rhsBatch := []
  wf := dot_S1024x512_S1024x128_S512x128_0_0_1_1_n_n_wf
def dot_S128x512_S1024x512_S128x1024_1_1_0_0_n_n : DotDims S128x512 S1024x512 S128x1024 where
  lhsContracting := [1]
  rhsContracting := [1]
  lhsNonContracting := [0]
  rhsNonContracting := [0]
  lhsBatch := []
  rhsBatch := []
  wf := dot_S128x512_S1024x512_S128x1024_1_1_0_0_n_n_wf
def dot_S512x128_S1024x512_S128x1024_0_1_1_0_n_n : DotDims S512x128 S1024x512 S128x1024 where
  lhsContracting := [0]
  rhsContracting := [1]
  lhsNonContracting := [1]
  rhsNonContracting := [0]
  lhsBatch := []
  rhsBatch := []
  wf := dot_S512x128_S1024x512_S128x1024_0_1_1_0_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x1024 : Shape := ⟨3, ![32, 128, 1024]⟩
abbrev S32x128x512 : Shape := ⟨3, ![32, 128, 512]⟩
abbrev S32768x1x384 : Shape := ⟨3, ![32768, 1, 384]⟩
abbrev S32x1024x128 : Shape := ⟨3, ![32, 1024, 128]⟩
abbrev S32x512x128 : Shape := ⟨3, ![32, 512, 128]⟩
abbrev S32x1024x384 : Shape := ⟨3, ![32, 1024, 384]⟩
abbrev S32x1024x512 : Shape := ⟨3, ![32, 1024, 512]⟩
abbrev S_ : Shape := ⟨0, ![]⟩
abbrev S32x1024 : Shape := ⟨2, ![32, 1024]⟩
abbrev S32x1024x1 : Shape := ⟨3, ![32, 1024, 1]⟩
abbrev S32x512 : Shape := ⟨2, ![32, 512]⟩
abbrev S32x1x512 : Shape := ⟨3, ![32, 1, 512]⟩
abbrev S32x512x1024 : Shape := ⟨3, ![32, 512, 1024]⟩

abbrev nBuf : Space → Nat
  | .hbm => 54
  | .vmem => 0
  | .smem => 0
  | _ => 0

abbrev bufTy : (tb : Table) → Fin (tcTables nBuf tb) → BufTy
  | .hbm, ⟨0, _⟩ => ⟨S32x128x1024, .f32⟩
  | .hbm, ⟨1, _⟩ => ⟨S32x128x512, .f32⟩
  | .hbm, ⟨2, _⟩ => ⟨S32768x1x384, .f32⟩
  | .hbm, ⟨3, _⟩ => ⟨S32x1024x128, .f32⟩
  | .hbm, ⟨4, _⟩ => ⟨S32x512x128, .f32⟩
  | .hbm, ⟨5, _⟩ => ⟨S32x1024x384, .f32⟩
  | .hbm, ⟨6, _⟩ => ⟨S32x1024x128, .f32⟩
  | .hbm, ⟨7, _⟩ => ⟨S32x1024x128, .f32⟩
  | .hbm, ⟨8, _⟩ => ⟨S32x1024x128, .f32⟩
  | .hbm, ⟨9, _⟩ => ⟨S32x1024x512, .f32⟩
  | .hbm, ⟨10, _⟩ => ⟨S32x1024x128, .f32⟩
  | .hbm, ⟨11, _⟩ => ⟨S_, .f32⟩
  | .hbm, ⟨12, _⟩ => ⟨S32x1024, .f32⟩
  | .hbm, ⟨13, _⟩ => ⟨S32x1024x1, .f32⟩
  | .hbm, ⟨14, _⟩ => ⟨S32x1024x512, .f32⟩
  | .hbm, ⟨15, _⟩ => ⟨S32x1024x512, .f32⟩
  | .hbm, ⟨16, _⟩ => ⟨S32x1024x128, .f32⟩
  | .hbm, ⟨17, _⟩ => ⟨S32x1024x512, .f32⟩
  | .hbm, ⟨18, _⟩ => ⟨S32x1024x512, .f32⟩
  | .hbm, ⟨19, _⟩ => ⟨S_, .f32⟩
  | .hbm, ⟨20, _⟩ => ⟨S32x1024, .f32⟩
  | .hbm, ⟨21, _⟩ => ⟨S_, .f32⟩
  | .hbm, ⟨22, _⟩ => ⟨S32x1024, .f32⟩
  | .hbm, ⟨23, _⟩ => ⟨S32x1024, .f32⟩
  | .hbm, ⟨24, _⟩ => ⟨S32x1024x1, .f32⟩
  | .hbm, ⟨25, _⟩ => ⟨S32x1024x512, .f32⟩
  | .hbm, ⟨26, _⟩ => ⟨S32x1024x512, .f32⟩
  | .hbm, ⟨27, _⟩ => ⟨S32x1024x512, .f32⟩
  | .hbm, ⟨28, _⟩ => ⟨S_, .f32⟩
  | .hbm, ⟨29, _⟩ => ⟨S32x1024, .f32⟩
  | .hbm, ⟨30, _⟩ => ⟨S32x1024x1, .f32⟩
  | .hbm, ⟨31, _⟩ => ⟨S32x1024x512, .f32⟩
  | .hbm, ⟨32, _⟩ => ⟨S32x1024x512, .f32⟩
  | .hbm, ⟨33, _⟩ => ⟨S_, .f32⟩
  | .hbm, ⟨34, _⟩ => ⟨S32x512, .f32⟩
  | .hbm, ⟨35, _⟩ => ⟨S_, .f32⟩
  | .hbm, ⟨36, _⟩ => ⟨S32x512, .f32⟩
  | .hbm, ⟨37, _⟩ => ⟨S32x512, .f32⟩
  | .hbm, ⟨38, _⟩ => ⟨S32x1x512, .f32⟩
  | .hbm, ⟨39, _⟩ => ⟨S32x1024x512, .f32⟩
  | .hbm, ⟨40, _⟩ => ⟨S32x1024x512, .f32⟩
  | .hbm, ⟨41, _⟩ => ⟨S32x1024x512, .f32⟩
  | .hbm, ⟨42, _⟩ => ⟨S_, .f32⟩
  | .hbm, ⟨43, _⟩ => ⟨S32x512, .f32⟩
  | .hbm, ⟨44, _⟩ => ⟨S32x1x512, .f32⟩
  | .hbm, ⟨45, _⟩ => ⟨S32x1024x512, .f32⟩
  | .hbm, ⟨46, _⟩ => ⟨S32x1024x512, .f32⟩
  | .hbm, ⟨47, _⟩ => ⟨S32x1024x128, .f32⟩
  | .hbm, ⟨48, _⟩ => ⟨S32x512x128, .f32⟩
  | .hbm, ⟨49, _⟩ => ⟨S32x1024x128, .f32⟩
  | .hbm, ⟨50, _⟩ => ⟨S32x1024x128, .f32⟩
  | .hbm, ⟨51, _⟩ => ⟨S32x1024x128, .f32⟩
  | .hbm, ⟨52, _⟩ => ⟨S32x1024x512, .f32⟩
  | .hbm, ⟨53, _⟩ => ⟨S32x512x1024, .f32⟩
  | _, _ => ⟨S32x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]

class Facts₀ : Prop where
  transposes_S32x128x1024_S32x1024x128_0_2_1 : S32x128x1024.Transposes [0, 2, 1] S32x1024x128
  transposes_S32x128x512_S32x512x128_0_2_1 : S32x128x512.Transposes [0, 2, 1] S32x512x128
  shapeCasts_S32768x1x384_S32x1024x384 : S32768x1x384.ShapeCasts S32x1024x384
  slices_S32x1024x384_S32x1024x128_0_0_0 : S32x1024x384.Slices ![0, 0, 0] S32x1024x128
  slices_S32x1024x384_S32x1024x128_0_0_128 : S32x1024x384.Slices ![0, 0, 128] S32x1024x128
  slices_S32x1024x384_S32x1024x128_0_0_256 : S32x1024x384.Slices ![0, 0, 256] S32x1024x128
  reducesTo_S32x1024x128_S32x1024_d2 : S32x1024x128.ReducesTo [2] S32x1024
  h_S_ : 0 < S_.numel
  bcast_S32x1024_S32x1024x1_0_1 : S32x1024.BroadcastsInDim S32x1024x1 (![0, 1] : Fin 2 → Fin S32x1024x1.rank)
  bcast_S32x1024x1_S32x1024x512_0_1_2 : S32x1024x1.BroadcastsInDim S32x1024x512 (![0, 1, 2] : Fin 3 → Fin S32x1024x512.rank)
  reducesTo_S32x1024x512_S32x1024_d2 : S32x1024x512.ReducesTo [2] S32x1024
  bcast_S_S32x1024 : S_.BroadcastsInDim S32x1024 (![] : Fin 0 → Fin S32x1024.rank)
  reducesTo_S32x1024x512_S32x512_d1 : S32x1024x512.ReducesTo [1] S32x512
  bcast_S_S32x512 : S_.BroadcastsInDim S32x512 (![] : Fin 0 → Fin S32x512.rank)
  bcast_S32x512_S32x1x512_0_2 : S32x512.BroadcastsInDim S32x1x512 (![0, 2] : Fin 2 → Fin S32x1x512.rank)
  bcast_S32x1x512_S32x1024x512_0_1_2 : S32x1x512.BroadcastsInDim S32x1024x512 (![0, 1, 2] : Fin 3 → Fin S32x1024x512.rank)
  concatenates_S32x1024x128_S32x1024x128_S32x1024x128_S32x1024x128_S32x1024x512_d2 : Shape.Concatenates [S32x1024x128, S32x1024x128, S32x1024x128, S32x1024x128] S32x1024x512 2
  transposes_S32x1024x512_S32x512x1024_0_2_1 : S32x1024x512.Transposes [0, 2, 1] S32x512x1024
  dot_S32x1024x128_S32x512x128_S32x1024x512_2_2_1_1_0_0_wf : DotDims.WF S32x1024x128 S32x512x128 S32x1024x512 [2] [2] [1] [1] [0] [0]
  dot_S32x1024x512_S32x512x128_S32x1024x128_2_1_1_2_0_0_wf : DotDims.WF S32x1024x512 S32x512x128 S32x1024x128 [2] [1] [1] [2] [0] [0]
  dot_S32x1024x512_S32x1024x128_S32x512x128_1_1_2_2_0_0_wf : DotDims.WF S32x1024x512 S32x1024x128 S32x512x128 [1] [1] [2] [2] [0] [0]

variable [Facts₀]

def dot_S32x1024x128_S32x512x128_S32x1024x512_2_2_1_1_0_0 : DotDims S32x1024x128 S32x512x128 S32x1024x512 where
  lhsContracting := [2]
  rhsContracting := [2]
  lhsNonContracting := [1]
  rhsNonContracting := [1]
  lhsBatch := [0]
  rhsBatch := [0]
  wf := dot_S32x1024x128_S32x512x128_S32x1024x512_2_2_1_1_0_0_wf
def dot_S32x1024x512_S32x512x128_S32x1024x128_2_1_1_2_0_0 : DotDims S32x1024x512 S32x512x128 S32x1024x128 where
  lhsContracting := [2]
  rhsContracting := [1]
  lhsNonContracting := [1]
  rhsNonContracting := [2]
  lhsBatch := [0]
  rhsBatch := [0]
  wf := dot_S32x1024x512_S32x512x128_S32x1024x128_2_1_1_2_0_0_wf
def dot_S32x1024x512_S32x1024x128_S32x512x128_1_1_2_2_0_0 : DotDims S32x1024x512 S32x1024x128 S32x512x128 where
  lhsContracting := [1]
  rhsContracting := [1]
  lhsNonContracting := [2]
  rhsNonContracting := [2]
  lhsBatch := [0]
  rhsBatch := [0]
  wf := dot_S32x1024x512_S32x1024x128_S32x512x128_1_1_2_2_0_0_wf

class Facts : Prop extends Facts₀ where

variable [Facts]
-- ==== Proof.Spec.lean ====
/-
  Context–query attention with a trilinear score, as one function of the argument arrays.

  For one batch, with C : D × CL, Q : D × QL and three weight panels wq, wc, wqc : CL × D (D = 128, CL = 1024,
  QL = 512), everything on the extended reals:

    bias c      = Σ_d wc c d · C d c
    score c q   = Σ_d wq c d · Q d q  +  bias c  +  Σ_d (wqc c d · C d c) · Q d q
    P₁ c q      = exp (score c q − max_q' score c q') / Σ_q' exp (score c q' − max_q' …)     (softmax over queries)
    P₂ c q      = exp (score c q − max_c' score c' q) / Σ_c' exp (score c' q − max_c' …)     (softmax over context)
    A c d       = Σ_q P₁ c q · Q d q
    T q d       = Σ_k P₂ k q · C d k
    B c d       = Σ_q P₁ c q · T q d
    out r c     = C r c | A c (r−128) | C (r−256) c · A c (r−256) | C (r−384) c · B c (r−384)   by the quarter r lies in.

  The maxima start from the pattern of −∞ and are taken once more against it, exactly as both programs spell them; no
  property of exp, of the quotient or of the maximum is used anywhere: the two programs apply the same operations to the
  same score, and the only laws that join them are commutativity and associativity of + and · on the extended reals,
  that the zero a host sum starts from is the neutral element of + (all of which hold at the infinities too), and the
  splitting of a sum over 2·D indices into its two halves.
-/
import Idealize.ShloMosaic.PureOps.Ideal
import Idealize.ShloMosaic.Lib.ValueIdx

noncomputable section

namespace CQAttn

open Idealize.ShloMosaic Idealize.ShloMosaic.ValueIdx

/-- −∞ as the f32 pattern both programs start their maxima from. -/
abbrev negInf : EReal := Ideal.ofBits .f32 0xFF800000#32

/-! ## The score -/

section Score

variable (C : Fin 128 → Fin 1024 → EReal) (Q : Fin 128 → Fin 512 → EReal) (wq wc wqc : Fin 1024 → Fin 128 → EReal)

/-- The context-only term of the score: row c of wc against column c of C. -/
def bias (c : Fin 1024) : EReal := ∑ d : Fin 128, wc c d * C d c

/-- The trilinear score, in the order the reference adds its three terms. -/
def score (c : Fin 1024) (q : Fin 512) : EReal :=
  (∑ d : Fin 128, wq c d * Q d q) + bias C wc c + ∑ d : Fin 128, (wqc c d * C d c) * Q d q

end Score

/-- A sum over 2·128 indices whose first half is X and second half is Z, plus b afterwards, is X + b + Z: the
    fused contraction of depth 2·D with the bias added last, against the reference's order. Only commutativity and
    associativity of + are used, so nothing has to be finite. -/
theorem fused_sum_add (f : Fin 256 → EReal) (X Z : Fin 128 → EReal) (b : EReal)
    (hX : ∀ d : Fin 128, f ⟨d.val, by have := d.isLt; omega⟩ = X d)
    (hZ : ∀ d : Fin 128, f ⟨128 + d.val, by have := d.isLt; omega⟩ = Z d) :
    (∑ k : Fin 256, f k) + b = (∑ d : Fin 128, X d) + b + ∑ d : Fin 128, Z d := by
  have h := Fin.sum_univ_add (a := 128) (b := 128) (f : Fin (128 + 128) → EReal)
  rw [show (∑ k : Fin 256, f k) = ∑ k : Fin (128 + 128), f k from rfl, h, add_right_comm]
  congr 1
  · congr 1
    exact Finset.sum_congr rfl fun d _ => (congrArg f (Fin.ext rfl)).trans (hX d)
  · exact Finset.sum_congr rfl fun d _ => (congrArg f (Fin.ext rfl)).trans (hZ d)

/-! ## The two softmaxes of one score -/

section Softmax

variable (s : Fin 1024 → Fin 512 → EReal)

/-- The maximum of row c over the queries, from −∞, and once more against −∞. -/
def rowMax (c : Fin 1024) : EReal := max negInf ((Finset.univ : Finset (Fin 512)).fold max negInf fun q => s c q)

/-- The maximum of column q over the context, from −∞, and once more against −∞. -/
def colMax (q : Fin 512) : EReal := max negInf ((Finset.univ : Finset (Fin 1024)).fold max negInf fun c => s c q)

/-- The softmax over queries. -/
def overQueries (c : Fin 1024) (q : Fin 512) : EReal :=
  Ideal.div (Ideal.exp (s c q - rowMax s c)) (∑ q' : Fin 512, Ideal.exp (s c q' - rowMax s c))

/-- The softmax over context. -/
def overContext (c : Fin 1024) (q : Fin 512) : EReal :=
  Ideal.div (Ideal.exp (s c q - colMax s q)) (∑ c' : Fin 1024, Ideal.exp (s c' q - colMax s q))

end Softmax

/-! ## The attended values and the four quarters of the output -/

section Attend

variable (C : Fin 128 → Fin 1024 → EReal) (Q : Fin 128 → Fin 512 → EReal) (P₁ P₂ : Fin 1024 → Fin 512 → EReal)

/-- Context-to-query attention: row c of P₁ against row d of Q. -/
def queryMix (c : Fin 1024) (d : Fin 128) : EReal := ∑ q : Fin 512, P₁ c q * Q d q

/-- Column q of P₂ against row d of C. -/
def contextMix (q : Fin 512) (d : Fin 128) : EReal := ∑ k : Fin 1024, P₂ k q * C d k

/-- Query-to-context attention, associated as P₁ · (P₂ᵀ · Cᵀ). -/
def doubleMix (c : Fin 1024) (d : Fin 128) : EReal := ∑ q : Fin 512, P₁ c q * contextMix C P₂ q d

/-- Row r, column c of one batch of the output: the quarter r lies in chooses among C, A, C·A, C·B. -/
def outRow (r : Fin 512) (c : Fin 1024) : EReal :=
  if h0 : r.val < 128 then C ⟨r.val, h0⟩ c
  else if h1 : r.val < 256 then queryMix Q P₁ c ⟨r.val - 128, by omega⟩
  else if h2 : r.val < 384 then C ⟨r.val - 256, by omega⟩ c * queryMix Q P₁ c ⟨r.val - 256, by omega⟩
  else C ⟨r.val - 384, by have := r.isLt; omega⟩ c * doubleMix C P₁ P₂ c ⟨r.val - 384, by have := r.isLt; omega⟩

end Attend

/-- One batch, from its C, Q and three weight panels. -/
def attend (C : Fin 128 → Fin 1024 → EReal) (Q : Fin 128 → Fin 512 → EReal) (wq wc wqc : Fin 1024 → Fin 128 → EReal)
    (r : Fin 512) (c : Fin 1024) : EReal :=
  outRow C Q (overQueries (score C Q wq wc wqc)) (overContext (score C Q wq wc wqc)) r c

/-! ## The whole array -/

/-- Batch b of the three arrays: C and Q as they are, the weights as the three column panels of the re-laid
    [32, 1024, 384] weight array. -/
def batchC (C3 : (⟨3, ![32, 128, 1024]⟩ : Shape).Idx → EReal) (b : Fin 32) : Fin 128 → Fin 1024 → EReal :=
  fun d c => C3 (ix3 b d c)
def batchQ (Q3 : (⟨3, ![32, 128, 512]⟩ : Shape).Idx → EReal) (b : Fin 32) : Fin 128 → Fin 512 → EReal :=
  fun d q => Q3 (ix3 b d q)
def panel (W3 : (⟨3, ![32, 1024, 384]⟩ : Shape).Idx → EReal) (off : Nat) (hoff : off + 128 ≤ 384) (b : Fin 32) :
    Fin 1024 → Fin 128 → EReal :=
  fun c d => W3 (ix3 b c ⟨off + d.val, by have := d.isLt; omega⟩)

/-- The output array, index by index, as one function of C, Q and the re-laid weights. -/
def result (C3 : (⟨3, ![32, 128, 1024]⟩ : Shape).Idx → EReal) (Q3 : (⟨3, ![32, 128, 512]⟩ : Shape).Idx → EReal)
    (W3 : (⟨3, ![32, 1024, 384]⟩ : Shape).Idx → EReal) : (⟨3, ![32, 512, 1024]⟩ : Shape).Idx → EReal :=
  fun i => attend (batchC C3 (i 0)) (batchQ Q3 (i 0)) (panel W3 0 (by omega) (i 0)) (panel W3 128 (by omega) (i 0))
    (panel W3 256 (by omega) (i 0)) (i 1) (i 2)

end CQAttn

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.KLayout.lean ====
/-
  The three re-layings of the loaded blocks and the re-laying of a stored block, each read at an index.

  A block loaded with a leading unit axis, [1, a, b], is cast to the matrix [a, b]: position (i, j) of the matrix is
  position (0, i, j) of the block, both being the (i·b + j)-th in row-major order.  The context block C : [1, 128, 1024]
  is also transposed after the cast, so the transposed matrix at (c, d) is the block at (0, d, c).  The query block
  Q : [1, 128, 512] is cast and then narrowed in format, and on the extended reals the narrowing is the identity.
  In the other direction a matrix [128, 1024] is cast to [1, 128, 1024] before it is stored, and reads at (0, d, c) the
  matrix at (d, c).
-/
import proofs.«110918_j15101105013508_2_alg».proof.Proof.Gen.KernelIdeal.Skeleton
import proofs.«110918_j15101105013508_2_alg».proof.Proof.Spec
import proofs.«110918_j15101105013508_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The context block as a matrix: at (d, c) it is the block at (0, d, c). -/
theorem pay7_apply (v0 : Vec Ideal S1x128x1024 .f32) (d : Fin 128) (c : Fin 1024) :
    k0_pay7 (F := Ideal) v0 (ix2 d c) = v0 (ix3 (0 : Fin 1) d c) :=
  shapeCast_1ab_ab_apply v0 shapeCasts_S1x128x1024_S128x1024 d c

/-- The transposed context matrix: at (c, d) it is the block at (0, d, c). -/
theorem pay8_apply (v0 : Vec Ideal S1x128x1024 .f32) (c : Fin 1024) (d : Fin 128) :
    k0_pay8 (F := Ideal) v0 (ix2 c d) = v0 (ix3 (0 : Fin 1) d c) :=
  (transpose_ix2_apply (k0_pay7 (F := Ideal) v0) transposes_S128x1024_p1_0_S1024x128 c d).trans (pay7_apply v0 d c)

/-- The query block as a matrix, narrowed in format: at (d, q) it is the block at (0, d, q). -/
theorem pay9_apply (v2 : Vec Ideal S1x128x512 .f32) (d : Fin 128) (q : Fin 512) :
    k0_pay9 (F := Ideal) v2 (ix2 d q) = v2 (ix3 (0 : Fin 1) d q) :=
  shapeCast_1ab_ab_apply v2 shapeCasts_S1x128x512_S128x512 d q

/-- A matrix given a leading unit axis: at (0, d, c) it is the matrix at (d, c). -/
theorem pay3_apply (v1 : FVec Ideal S128x1024 .f32) (d : Fin 128) (c : Fin 1024) :
    k0_pay3 (F := Ideal) v1 (ix3 (0 : Fin 1) d c) = v1 (ix2 d c) :=
  shapeCast_ab_1ab_apply v1 shapeCasts_S128x1024_S1x128x1024 (0 : Fin 1) d c

end Cert.KernelIdeal.Body

end
-- ==== Proof.KScore.lean ====
/-
  The score payload read at an index: the trilinear score of context–query attention.

  With C : [128, 1024] the context block, Q : [128, 512] the query block and wq, wc, wqc : [1024, 128] the three weight
  panels, the kernel forms the score as ONE contraction of depth 256 plus a bias added afterwards:

    L = [ wq | wqc ∘ Cᵀ ]  : [1024, 256]      (two matrices side by side; ∘ is the entrywise product, Cᵀ[c, d] = C[d, c])
    R = [ Q ; Q ]           : [256, 512]       (Q above Q)
    payload[c, q] = Σ_{k<256} L[c, k] · R[k, q]  +  Σ_d wc[c, d] · C[d, c].

  The first 128 terms of the contraction are wq[c, d] · Q[d, q] and the last 128 are (wqc[c, d] · C[d, c]) · Q[d, q], so
  the sum over 256 indices splits into its two halves, and the bias, added last, moves between them by commutativity
  and associativity of + on the extended reals: the result is score c q in the order the specification adds its terms.
  The file reads, in turn, the product at an index as the sum over the contraction coordinate, each of the two
  concatenations at an index of either piece, and the row sums kept as a column and spread over the columns; the
  helper statements live in the namespace Score, the result score_apply beside it.
-/
import proofs.«110918_j15101105013508_2_alg».proof.Proof.Gen.KernelIdeal.Skeleton
import proofs.«110918_j15101105013508_2_alg».proof.Proof.Spec
import proofs.«110918_j15101105013508_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

namespace Score

/-! ## The fused contraction read at an index -/

/-- The left operand's row coordinate at output index `j` is `j`'s row, whatever the contraction position. -/
theorem dot_lhs_row (j : S1024x512.Idx) (k : dot_S1024x256_S256x512_S1024x512_1_0_0_1_n_n.contr.Idx) :
    (dot_S1024x256_S256x512_S1024x512_1_0_0_1_n_n.lhsIdx j k 0).val = (j 0).val := by
  unfold DotDims.lhsIdx
  rw [dif_neg (show ¬(0 : Fin S1024x256.rank) ∈ dot_S1024x256_S256x512_S1024x512_1_0_0_1_n_n.lhsBatch by decide),
    dif_pos (show (0 : Fin S1024x256.rank) ∈ dot_S1024x256_S256x512_S1024x512_1_0_0_1_n_n.lhsNonContracting by decide)]
  rfl

/-- The left operand's column coordinate is the contraction position. -/
theorem dot_lhs_col (j : S1024x512.Idx) (k : dot_S1024x256_S256x512_S1024x512_1_0_0_1_n_n.contr.Idx) :
    (dot_S1024x256_S256x512_S1024x512_1_0_0_1_n_n.lhsIdx j k 1).val = (k ⟨0, by decide⟩).val :=
  dot_S1024x256_S256x512_S1024x512_1_0_0_1_n_n.lhsIdx_val_of_single rfl j k

/-- The right operand's row coordinate is the contraction position. -/
theorem dot_rhs_row (j : S1024x512.Idx) (k : dot_S1024x256_S256x512_S1024x512_1_0_0_1_n_n.contr.Idx) :
    (dot_S1024x256_S256x512_S1024x512_1_0_0_1_n_n.rhsIdx j k 0).val = (k ⟨0, by decide⟩).val :=
  dot_S1024x256_S256x512_S1024x512_1_0_0_1_n_n.rhsIdx_val_of_single rfl j k

/-- The right operand's column coordinate at output index `j` is `j`'s column. -/
theorem dot_rhs_col (j : S1024x512.Idx) (k : dot_S1024x256_S256x512_S1024x512_1_0_0_1_n_n.contr.Idx) :
    (dot_S1024x256_S256x512_S1024x512_1_0_0_1_n_n.rhsIdx j k 1).val = (j 1).val := by
  unfold DotDims.rhsIdx
  rw [dif_neg (show ¬(1 : Fin S256x512.rank) ∈ dot_S1024x256_S256x512_S1024x512_1_0_0_1_n_n.rhsBatch by decide),
    dif_pos (show (1 : Fin S256x512.rank) ∈ dot_S1024x256_S256x512_S1024x512_1_0_0_1_n_n.rhsNonContracting by decide)]
  rfl

/-- A [1024, 256] × [256, 512] product accumulated into zero reads, at (c, q), Σ_{k<256} L[c, k] · R[k, q]. -/
theorem matmul_read (L : FVec Ideal S1024x256 .bf16) (R : FVec Ideal S256x512 .bf16) (c : Fin 1024) (q : Fin 512) :
    FloatOps.matmul dot_S1024x256_S256x512_S1024x512_1_0_0_1_n_n none L R (constant S1024x512 .f32 0x00000000#32) (ix2 c q)
      = ∑ k : Fin 256, (L (ix2 c k) : EReal) * R (ix2 k q) := by
  refine (Ideal.matmul_constant_zero_apply dot_S1024x256_S256x512_S1024x512_1_0_0_1_n_n none L R (ix2 c q)).trans ?_
  refine (Equiv.sum_comp (contrEquiv1 dot_S1024x256_S256x512_S1024x512_1_0_0_1_n_n 256 rfl rfl).symm _).symm.trans ?_
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 c q) ((contrEquiv1 dot_S1024x256_S256x512_S1024x512_1_0_0_1_n_n 256 rfl rfl).symm k) = ix2 c k :=
    funext fun a => Fin.ext (by
      match a with
      | ⟨0, _⟩ => exact dot_lhs_row _ _
      | ⟨1, _⟩ => exact (dot_lhs_col _ _).trans hk)
  have er : dot_S1024x256_S256x512_S1024x512_1_0_0_1_n_n.rhsIdx (ix2 c q) ((contrEquiv1 dot_S1024x256_S256x512_S1024x512_1_0_0_1_n_n 256 rfl rfl).symm k) = ix2 k q :=
    funext fun a => Fin.ext (by
      match a with
      | ⟨0, _⟩ => exact (dot_rhs_row _ _).trans hk
      | ⟨1, _⟩ => exact dot_rhs_col _ _)
  rw [el, er]

/-! ## The two concatenations read at an index -/

section Concat
variable {α : Type}

/-- Two [1024, 128] matrices side by side: column `d` of the first half reads the first matrix at (c, d). -/
theorem concat_cols_left (x₁ x₂ : S1024x128.Idx → α) (h : Shape.Concatenates [S1024x128, S1024x128] S1024x256 1)
    (c : Fin 1024) (d : Fin 128) :
    concatenate S1024x256 1 [⟨S1024x128, x₁⟩, ⟨S1024x128, x₂⟩] h (ix2 c ⟨d.val, by have := d.isLt; omega⟩)
      = x₁ (ix2 c d) :=
  concatenate_pair_apply_left 1 x₁ x₂ h _ rfl (ix2 c d) fun b => match b with
    | ⟨0, _⟩ => rfl
    | ⟨1, _⟩ => rfl

/-- Two [1024, 128] matrices side by side: column `128 + d` reads the second matrix at (c, d). -/
theorem concat_cols_right (x₁ x₂ : S1024x128.Idx → α) (h : Shape.Concatenates [S1024x128, S1024x128] S1024x256 1)
    (c : Fin 1024) (d : Fin 128) :
    concatenate S1024x256 1 [⟨S1024x128, x₁⟩, ⟨S1024x128, x₂⟩] h (ix2 c ⟨128 + d.val, by have := d.isLt; omega⟩)
      = x₂ (ix2 c d) :=
  concatenate_pair_apply_right 1 x₁ x₂ h _ rfl rfl (ix2 c d)
    (fun b hb => match b, hb with
      | ⟨0, _⟩, _ => rfl
      | ⟨1, _⟩, hb => absurd (Fin.ext rfl) hb)
    (show d.val + 128 = 128 + d.val from Nat.add_comm _ _)

/-- Two [128, 512] matrices one above the other: row `d` of the upper half reads the first matrix at (d, q). -/
theorem concat_rows_left (x₁ x₂ : S128x512.Idx → α) (h : Shape.Concatenates [S128x512, S128x512] S256x512 0)
    (d : Fin 128) (q : Fin 512) :
    concatenate S256x512 0 [⟨S128x512, x₁⟩, ⟨S128x512, x₂⟩] h (ix2 ⟨d.val, by have := d.isLt; omega⟩ q)
      = x₁ (ix2 d q) :=
  concatenate_pair_apply_left 0 x₁ x₂ h _ rfl (ix2 d q) fun b => match b with
    | ⟨0, _⟩ => rfl
    | ⟨1, _⟩ => rfl

/-- Two [128, 512] matrices one above the other: row `128 + d` reads the second matrix at (d, q). -/
theorem concat_rows_right (x₁ x₂ : S128x512.Idx → α) (h : Shape.Concatenates [S128x512, S128x512] S256x512 0)
    (d : Fin 128) (q : Fin 512) :
    concatenate S256x512 0 [⟨S128x512, x₁⟩, ⟨S128x512, x₂⟩] h (ix2 ⟨128 + d.val, by have := d.isLt; omega⟩ q)
      = x₂ (ix2 d q) :=
  concatenate_pair_apply_right 0 x₁ x₂ h _ rfl rfl (ix2 d q)
    (fun b hb => match b, hb with
      | ⟨0, _⟩, hb => absurd (Fin.ext rfl) hb
      | ⟨1, _⟩, _ => rfl)
    (show d.val + 128 = 128 + d.val from Nat.add_comm _ _)

end Concat

/-! ## The operands of the fused contraction, and the terms of the bias, as the kernel builds them -/

section Operands

variable (v0 : Vec Ideal S1x128x1024 .f32) (v2 : Vec Ideal S1x128x512 .f32) (v5 v8 v10 : Vec Ideal S1x1024x128 .f32)

/-- The transposed context matrix Cᵀ at (c, d) is the context block at (0, d, c). -/
theorem contextT_apply (c : Fin 1024) (d : Fin 128) :
    k0_pay8 (F := Ideal) v0 (ix2 c d) = v0 (ix3 (0 : Fin 1) d c) :=
  (transpose_ix2_apply (k0_pay7 (F := Ideal) v0) transposes_S128x1024_p1_0_S1024x128 c d).trans
    (shapeCast_1ab_ab_apply v0 shapeCasts_S1x128x1024_S128x1024 d c)

/-- The query matrix Q at (d, q) is the query block at (0, d, q). -/
theorem queryMat_apply (d : Fin 128) (q : Fin 512) :
    k0_pay9 (F := Ideal) v2 (ix2 d q) = v2 (ix3 (0 : Fin 1) d q) :=
  shapeCast_1ab_ab_apply v2 shapeCasts_S1x128x512_S128x512 d q

/-- The left operand, [1024, 256]: wq beside wqc ∘ Cᵀ (entrywise product). -/
def scoreLhs : FVec Ideal S1024x256 .bf16 :=
  have v6 : FVec Ideal S1024x128 .f32 := shapeCast S1024x128 v5 shapeCasts_S1x1024x128_S1024x128
  have v7 : FVec Ideal S1024x128 .bf16 := truncf .bf16 v6 bitsLt_bf16_f32
  have v11 : FVec Ideal S1024x128 .f32 := shapeCast S1024x128 v10 shapeCasts_S1x1024x128_S1024x128
  have v15 : FVec Ideal S1024x128 .f32 := mulf v11 (k0_pay8 v0)
  have v16 : FVec Ideal S1024x128 .bf16 := truncf .bf16 v15 bitsLt_bf16_f32
  concatenate S1024x256 1 [⟨S1024x128, v7⟩, ⟨S1024x128, v16⟩] concatenates_S1024x128_S1024x128_S1024x256_d1

/-- The right operand, [256, 512]: Q above Q. -/
def scoreRhs : FVec Ideal S256x512 .bf16 :=
  concatenate S256x512 0 [⟨S128x512, k0_pay9 (F := Ideal) v2⟩, ⟨S128x512, k0_pay9 (F := Ideal) v2⟩]
    concatenates_S128x512_S128x512_S256x512_d0

/-- The terms of the bias, [1024, 128]: wc ∘ Cᵀ (entrywise product). -/
def biasTerms : FVec Ideal S1024x128 .f32 :=
  have v9 : FVec Ideal S1024x128 .f32 := shapeCast S1024x128 v8 shapeCasts_S1x1024x128_S1024x128
  mulf v9 (k0_pay8 v0)

/-- The score payload is the fused product of the two operands, accumulated into zero, plus the row sums of the bias
    terms kept as a column and spread over the 512 columns. -/
theorem pay10_eq :
    k0_pay10 (F := Ideal) v0 v2 v5 v8 v10
      = addf (FloatOps.matmul dot_S1024x256_S256x512_S1024x512_1_0_0_1_n_n none (scoreLhs v0 v5 v10) (scoreRhs v2)
            (constant (F := Ideal) S1024x512 .f32 0x00000000#32))
          (broadcastTo S1024x512
            (shapeCast S1024x1
              (multiReduction (F := Ideal) .add [1] S1024 (biasTerms v0 v8) 0x00000000#32 reduces_S1024x128_S1024 (.inl rfl) rfl)
              shapeCasts_S1024_S1024x1)
            broadcasts_S1024x1_S1024x512) := rfl

/-- Column `d` of the left operand's first half: wq[c, d]. -/
theorem scoreLhs_left (c : Fin 1024) (d : Fin 128) :
    scoreLhs v0 v5 v10 (ix2 c ⟨d.val, by have := d.isLt; omega⟩) = v5 (ix3 (0 : Fin 1) c d) :=
  (concat_cols_left _ _ concatenates_S1024x128_S1024x128_S1024x256_d1 c d).trans
    (shapeCast_1ab_ab_apply v5 shapeCasts_S1x1024x128_S1024x128 c d)

/-- Column `128 + d` of the left operand: wqc[c, d] · C[d, c]. -/
theorem scoreLhs_right (c : Fin 1024) (d : Fin 128) :
    scoreLhs v0 v5 v10 (ix2 c ⟨128 + d.val, by have := d.isLt; omega⟩)
      = (v10 (ix3 (0 : Fin 1) c d) : EReal) * v0 (ix3 (0 : Fin 1) d c) :=
  (concat_cols_right _ _ concatenates_S1024x128_S1024x128_S1024x256_d1 c d).trans
    (congrArg₂ (fun a b : EReal => a * b) (shapeCast_1ab_ab_apply v10 shapeCasts_S1x1024x128_S1024x128 c d)
      (contextT_apply v0 c d))

/-- Row `d` of the right operand's upper half: Q[d, q]. -/
theorem scoreRhs_left (d : Fin 128) (q : Fin 512) :
    scoreRhs v2 (ix2 ⟨d.val, by have := d.isLt; omega⟩ q) = v2 (ix3 (0 : Fin 1) d q) :=
  (concat_rows_left _ _ concatenates_S128x512_S128x512_S256x512_d0 d q).trans (queryMat_apply v2 d q)

/-- Row `128 + d` of the right operand: Q[d, q] again. -/
theorem scoreRhs_right (d : Fin 128) (q : Fin 512) :
    scoreRhs v2 (ix2 ⟨128 + d.val, by have := d.isLt; omega⟩ q) = v2 (ix3 (0 : Fin 1) d q) :=
  (concat_rows_right _ _ concatenates_S128x512_S128x512_S256x512_d0 d q).trans (queryMat_apply v2 d q)

/-- The bias terms at (c, d): wc[c, d] · C[d, c]. -/
theorem biasTerms_apply (c : Fin 1024) (d : Fin 128) :
    biasTerms v0 v8 (ix2 c d) = (v8 (ix3 (0 : Fin 1) c d) : EReal) * v0 (ix3 (0 : Fin 1) d c) :=
  congrArg₂ (fun a b : EReal => a * b) (shapeCast_1ab_ab_apply v8 shapeCasts_S1x1024x128_S1024x128 c d)
    (contextT_apply v0 c d)

end Operands

end Score

open Score

/-! ## The score -/

variable (v0 : Vec Ideal S1x128x1024 .f32) (v2 : Vec Ideal S1x128x512 .f32) (v5 v8 v10 : Vec Ideal S1x1024x128 .f32)

/-- The score payload at (c, q) is the trilinear score of the five loaded blocks: the contraction of depth 256 splits
    into its halves Σ_d wq[c,d]·Q[d,q] and Σ_d (wqc[c,d]·C[d,c])·Q[d,q], and the bias Σ_d wc[c,d]·C[d,c], added last by
    the kernel, moves between them. -/
theorem score_apply (c : Fin 1024) (q : Fin 512) :
    k0_pay10 (F := Ideal) v0 v2 v5 v8 v10 (ix2 c q)
      = CQAttn.score (fun d c => v0 (ix3 (0 : Fin 1) d c)) (fun d q => v2 (ix3 (0 : Fin 1) d q))
          (fun c d => v5 (ix3 (0 : Fin 1) c d)) (fun c d => v8 (ix3 (0 : Fin 1) c d))
          (fun c d => v10 (ix3 (0 : Fin 1) c d)) c q := by
  have hmm := matmul_read (scoreLhs v0 v5 v10) (scoreRhs v2) c q
  have hb := Cert.LibKeepdims.rowSum_keepdims_broadcast_apply (c := 512) (biasTerms v0 v8) 0x00000000#32
    reduces_S1024x128_S1024 (.inl rfl) rfl shapeCasts_S1024_S1024x1 broadcasts_S1024x1_S1024x512 c q
  have hbias : (∑ f : Fin 128, biasTerms v0 v8 (ix2 c f))
      = ∑ d : Fin 128, (v8 (ix3 (0 : Fin 1) c d) : EReal) * v0 (ix3 (0 : Fin 1) d c) :=
    Finset.sum_congr rfl fun d _ => biasTerms_apply v0 v8 c d
  have hfused := CQAttn.fused_sum_add
    (fun k : Fin 256 => (scoreLhs v0 v5 v10 (ix2 c k) : EReal) * scoreRhs v2 (ix2 k q))
    (fun d : Fin 128 => (v5 (ix3 (0 : Fin 1) c d) : EReal) * v2 (ix3 (0 : Fin 1) d q))
    (fun d : Fin 128 => ((v10 (ix3 (0 : Fin 1) c d) : EReal) * v0 (ix3 (0 : Fin 1) d c)) * v2 (ix3 (0 : Fin 1) d q))
    (∑ d : Fin 128, (v8 (ix3 (0 : Fin 1) c d) : EReal) * v0 (ix3 (0 : Fin 1) d c))
    (fun d => congrArg₂ (fun a b : EReal => a * b) (scoreLhs_left v0 v5 v10 c d) (scoreRhs_left v2 d q))
    (fun d => congrArg₂ (fun a b : EReal => a * b) (scoreLhs_right v0 v5 v10 c d) (scoreRhs_right v2 d q))
  rw [pay10_eq]
  refine (congrArg₂ (fun a b : EReal => a + b) hmm (hb.trans hbias)).trans ?_
  exact hfused

end Cert.KernelIdeal.Body

end
-- ==== Proof.KSoftmax.lean ====
/-
  The two softmaxes of the score, as the kernel's vector operations compute them, read at an index.

  For a [1024, 512] matrix x (the score, rows = context positions c, columns = query positions q), on the extended reals:

    rowMax c     = max (−∞) (max over q of x[c, q], folded from −∞)
    colMax q     = max (−∞) (max over c of x[c, q], folded from −∞)
    P₁[c, q]     = exp (x[c, q] − rowMax c) / Σ_q' exp (x[c, q'] − rowMax c)

  The kernel takes the row maxima by a reduction over the last axis from the pattern of −∞, takes the maximum once more
  against that pattern spread as a vector, makes the result a column [1024, 1] and spreads it over the 512 columns; it
  subtracts, exponentiates, sums each row, keeps the sums as a column, spreads them again and divides.  Read at (c, q)
  each of these is the pointwise operation on the entries, so the quotient is P₁[c, q] as the specification writes it.
  The column maxima are the same reduction over the first axis, read at q.  No property of exp, of the quotient or of
  the maximum is used: every step is the reading of one vector operation at an index.
-/
import proofs.«110918_j15101105013508_2_alg».proof.Proof.Gen.KernelIdeal.Skeleton
import proofs.«110918_j15101105013508_2_alg».proof.Proof.Spec
import proofs.«110918_j15101105013508_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- A float maximum over the last axis of an [a, b] matrix reads, at row i, the fold of max over that row's entries
    from the accumulator's value: the index over i with coordinate f put back on the reduced axis is (i, f). -/
theorem multiReduction_maximumf_lastAxis_apply {a b : ℕ} (x : FVec Ideal ⟨2, ![a, b]⟩ .f32) (acc : BitVec FTy.f32.bits)
    (h : (⟨2, ![a, b]⟩ : Shape).Reduces [1] ⟨1, ![a]⟩) (hφ : FKind.Formats .f32) (hacc : acc = FKind.maximumf.neutral .f32 hφ) (i : Fin a) :
    multiReduction .maximumf [1] ⟨1, ![a]⟩ x acc h hφ hacc (ix1 i)
      = (Finset.univ : Finset (Fin b)).fold max (Ideal.ofBits .f32 acc) fun f => x (ix2 i f) := by
  refine (Ideal.multiReduction_maximumf_single x acc h hφ hacc (ix1 i)).trans ?_
  exact congrArg (fun g : Fin b → EReal => (Finset.univ : Finset (Fin b)).fold max (Ideal.ofBits .f32 acc) g)
    (funext fun f => congrArg x (funext fun ax => Fin.ext (by
      match ax with
      | ⟨0, _⟩ => rfl
      | ⟨1, _⟩ => rfl)))

/-- The same over the first axis: at column j the fold of max over that column's entries; the index over j with
    coordinate f put back on the reduced axis is (f, j). -/
theorem multiReduction_maximumf_firstAxis_apply {a b : ℕ} (x : FVec Ideal ⟨2, ![a, b]⟩ .f32) (acc : BitVec FTy.f32.bits)
    (h : (⟨2, ![a, b]⟩ : Shape).Reduces [0] ⟨1, ![b]⟩) (hφ : FKind.Formats .f32) (hacc : acc = FKind.maximumf.neutral .f32 hφ) (j : Fin b) :
    multiReduction .maximumf [0] ⟨1, ![b]⟩ x acc h hφ hacc (ix1 j)
      = (Finset.univ : Finset (Fin a)).fold max (Ideal.ofBits .f32 acc) fun f => x (ix2 f j) := by
  refine (Ideal.multiReduction_maximumf_single x acc h hφ hacc (ix1 j)).trans ?_
  exact congrArg (fun g : Fin a → EReal => (Finset.univ : Finset (Fin a)).fold max (Ideal.ofBits .f32 acc) g)
    (funext fun f => congrArg x (funext fun ax => Fin.ext (by
      match ax with
      | ⟨0, _⟩ => rfl
      | ⟨1, _⟩ => rfl)))

/-- The maximum against −∞ spread as a vector reads, at every index, the maximum of −∞ and the entry. -/
theorem maxAgainstNegInf_apply {s : Shape} (v : FVec Ideal s .f32) (i : s.Idx) :
    maximumf (broadcast s (Scalar.ofBits (F := Ideal) .f32 0xFF800000#32)) v i = max CQAttn.negInf (v i) := rfl

/-- The row maximum as the kernel spells it: the reduction from −∞, then once more against −∞ spread as a vector. -/
theorem rowMaxVec_apply (x : FVec Ideal S1024x512 .f32)
    (h : S1024x512.Reduces [1] S1024) (hφ : FKind.Formats .f32)
    (hacc : (0xFF800000#32 : BitVec FTy.f32.bits) = FKind.maximumf.neutral .f32 hφ) (c : Fin 1024) :
    maximumf (broadcast S1024 (Scalar.ofBits (F := Ideal) .f32 0xFF800000#32))
        (multiReduction .maximumf [1] S1024 x 0xFF800000#32 h hφ hacc) (ix1 c)
      = CQAttn.rowMax (fun c q => x (ix2 c q)) c :=
  (maxAgainstNegInf_apply _ (ix1 c)).trans
    (congrArg (max CQAttn.negInf) (multiReduction_maximumf_lastAxis_apply x _ h hφ hacc c))

/-- The column maximum as the kernel spells it. -/
theorem colMaxVec_apply (x : FVec Ideal S1024x512 .f32)
    (h : S1024x512.Reduces [0] S512) (hφ : FKind.Formats .f32)
    (hacc : (0xFF800000#32 : BitVec FTy.f32.bits) = FKind.maximumf.neutral .f32 hφ) (q : Fin 512) :
    maximumf (broadcast S512 (Scalar.ofBits (F := Ideal) .f32 0xFF800000#32))
        (multiReduction .maximumf [0] S512 x 0xFF800000#32 h hφ hacc) (ix1 q)
      = CQAttn.colMax (fun c q => x (ix2 c q)) q :=
  (maxAgainstNegInf_apply _ (ix1 q)).trans
    (congrArg (max CQAttn.negInf) (multiReduction_maximumf_firstAxis_apply x _ h hφ hacc q))

/-- The exponentials of a matrix shifted by a row-constant matrix m (m[c, q] = M c for every q), each divided by its
    row's sum of them kept as a column and spread back over the row. -/
theorem expShiftOverRowSum_apply (x m : FVec Ideal S1024x512 .f32) (M : Fin 1024 → EReal)
    (hm : ∀ (c : Fin 1024) (q : Fin 512), m (ix2 c q) = M c)
    (h : S1024x512.Reduces [1] S1024) (hφ : FKind.Formats .f32)
    (hacc : (0x00000000#32 : BitVec FTy.f32.bits) = FKind.add.neutral .f32 hφ)
    (hc : S1024.ShapeCasts S1024x1) (hb : S1024x1.Broadcasts S1024x512) (c : Fin 1024) (q : Fin 512) :
    divf (exp (subf x m))
        (broadcastTo S1024x512 (shapeCast S1024x1 (multiReduction .add [1] S1024 (exp (subf x m)) 0x00000000#32 h hφ hacc) hc) hb)
        (ix2 c q)
      = Ideal.div (Ideal.exp (x (ix2 c q) - M c)) (∑ q' : Fin 512, Ideal.exp (x (ix2 c q') - M c)) := by
  have hs := Cert.LibKeepdims.rowSum_keepdims_broadcast_apply (exp (subf x m)) 0x00000000#32 h hφ hacc hc hb c q
  have he : ∀ q' : Fin 512, exp (subf x m) (ix2 c q') = Ideal.exp (x (ix2 c q') - M c) := fun q' =>
    congrArg (fun t : EReal => Ideal.exp (x (ix2 c q') - t)) (hm c q')
  exact (divf_apply _ _ (ix2 c q)).trans
    (congrArg₂ Ideal.div (he q) (hs.trans (Finset.sum_congr rfl fun q' _ => he q')))

section Softmax

variable (v0 : Vec Ideal S1x128x1024 .f32) (v2 : Vec Ideal S1x128x512 .f32) (v5 v8 v10 : Vec Ideal S1x1024x128 .f32)

/-- The softmax over queries of the score. -/
theorem softmaxQ_apply (c : Fin 1024) (q : Fin 512) :
    k0_pay11 (F := Ideal) v0 v2 v5 v8 v10 (ix2 c q)
      = CQAttn.overQueries (fun c q => k0_pay10 (F := Ideal) v0 v2 v5 v8 v10 (ix2 c q)) c q := by
  unfold k0_pay11
  generalize k0_pay10 (F := Ideal) v0 v2 v5 v8 v10 = x
  exact expShiftOverRowSum_apply x _ (CQAttn.rowMax fun c q => x (ix2 c q))
    (fun c q => (Cert.LibKeepdims.broadcastTo_a1_ac_apply _ _ c q).trans
      ((Cert.LibKeepdims.shapeCast_a_a1_apply _ _ c 0).trans (rowMaxVec_apply x _ _ _ c))) _ _ _ _ _ c q

/-- The column maxima of the score. -/
theorem colMax_apply (q : Fin 512) :
    k0_pay12 (F := Ideal) v0 v2 v5 v8 v10 (ix1 q)
      = CQAttn.colMax (fun c q => k0_pay10 (F := Ideal) v0 v2 v5 v8 v10 (ix2 c q)) q := by
  unfold k0_pay12
  generalize k0_pay10 (F := Ideal) v0 v2 v5 v8 v10 = x
  exact colMaxVec_apply x _ _ _ q

end Softmax

end Cert.KernelIdeal.Body
end
-- ==== Proof.KMix.lean ====
/-
  The three contractions after the two softmaxes, as the kernel's vector operations compute them, read at an index.

  With C : [128, 1024] (v1), Cᵀ : [1024, 128] (v4), Q : [128, 512] (v17), the score s : [1024, 512] (v22), the softmax over
  queries P₁ : [1024, 512] (v33) and the column maxima of the score (v36), on the extended reals:

    A'[d, c]   = Σ_q Q[d, q] · P₁[c, q]                                   (rows of Q against rows of P₁)
    P₂[k, q]   = exp (s[k, q] − colMax q) / Σ_k' exp (s[k', q] − colMax q)   (the softmax over context)
    T[q, d]    = Σ_k P₂[k, q] · Cᵀ[k, d]                                  (columns of P₂ against columns of Cᵀ)
    B'[d, c]   = Σ_q T[q, d] · P₁[c, q]                                   (columns of T against rows of P₁)

  and the three stored quarters are A', C ⊙ A' and C ⊙ B', each read through the cast [128, 1024] → [1, 128, 1024].

  A matrix product into the zero accumulator reads, at an output index, the sum over the one contraction coordinate of
  the products of the operands' entries; which entry of each operand that is follows from the product's dimension
  numbers, axis by axis.  The casts to the narrower format are the identity on the extended reals.  The softmax over
  context is read exactly as the one over queries, with the first axis in place of the last.  Nothing about exp, the
  quotient, + or · is used beyond congruence.
-/
import proofs.«110918_j15101105013508_2_alg».proof.Proof.Gen.KernelIdeal.Skeleton
import proofs.«110918_j15101105013508_2_alg».proof.Proof.Spec
import proofs.«110918_j15101105013508_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The three matrix products read at an index

For each product, first the coordinates of the two operand indices at output index j and contraction index k (a
non-contracting axis reads j at its position among the output's axes, the contracting axis reads k), then the product
itself as a sum over the contraction coordinate. -/

theorem rowsRows_lhs_0 (j : S128x1024.Idx) (k : dot_S128x512_S1024x512_S128x1024_1_1_0_0_n_n.contr.Idx) :
    (dot_S128x512_S1024x512_S128x1024_1_1_0_0_n_n.lhsIdx j k 0).val = (j 0).val := by
  unfold DotDims.lhsIdx
  rw [dif_neg (show ¬(0 : Fin S128x512.rank) ∈ dot_S128x512_S1024x512_S128x1024_1_1_0_0_n_n.lhsBatch by decide), dif_pos (show (0 : Fin S128x512.rank) ∈ dot_S128x512_S1024x512_S128x1024_1_1_0_0_n_n.lhsNonContracting by decide)]
  rfl
theorem rowsRows_lhs_1 (j : S128x1024.Idx) (k : dot_S128x512_S1024x512_S128x1024_1_1_0_0_n_n.contr.Idx) :
    (dot_S128x512_S1024x512_S128x1024_1_1_0_0_n_n.lhsIdx j k 1).val = (k ⟨0, by decide⟩).val :=
  dot_S128x512_S1024x512_S128x1024_1_1_0_0_n_n.lhsIdx_val_of_single rfl j k
theorem rowsRows_rhs_0 (j : S128x1024.Idx) (k : dot_S128x512_S1024x512_S128x1024_1_1_0_0_n_n.contr.Idx) :
    (dot_S128x512_S1024x512_S128x1024_1_1_0_0_n_n.rhsIdx j k 0).val = (j 1).val := by
  unfold DotDims.rhsIdx
  rw [dif_neg (show ¬(0 : Fin S1024x512.rank) ∈ dot_S128x512_S1024x512_S128x1024_1_1_0_0_n_n.rhsBatch by decide), dif_pos (show (0 : Fin S1024x512.rank) ∈ dot_S128x512_S1024x512_S128x1024_1_1_0_0_n_n.rhsNonContracting by decide)]
  rfl
theorem rowsRows_rhs_1 (j : S128x1024.Idx) (k : dot_S128x512_S1024x512_S128x1024_1_1_0_0_n_n.contr.Idx) :
    (dot_S128x512_S1024x512_S128x1024_1_1_0_0_n_n.rhsIdx j k 1).val = (k ⟨0, by decide⟩).val :=
  dot_S128x512_S1024x512_S128x1024_1_1_0_0_n_n.rhsIdx_val_of_single rfl j k

/-- Rows of the left operand against rows of the right one (both contract their second axis): entry (d, c) is Σ_k a[d, k] · b[c, k]. -/
theorem rowsRows_apply (a : FVec Ideal S128x512 .bf16) (b : FVec Ideal S1024x512 .bf16) (d : Fin 128) (c : Fin 1024) :
    matmul dot_S128x512_S1024x512_S128x1024_1_1_0_0_n_n none a b (constant S128x1024 .f32 0x00000000#32) (ix2 d c)
      = ∑ k : Fin 512, a (ix2 d k) * b (ix2 c k) := by
  refine (Ideal.matmul_constant_zero_apply _ none a b (ix2 d c)).trans ?_
  rw [← Equiv.sum_comp (ValueIdx.contrEquiv1 dot_S128x512_S1024x512_S128x1024_1_1_0_0_n_n 512 rfl rfl).symm]
  refine Finset.sum_congr rfl fun k _ => ?_
  have hk := ValueIdx.contrEquiv1_symm_val dot_S128x512_S1024x512_S128x1024_1_1_0_0_n_n 512 rfl rfl k
  have el : dot_S128x512_S1024x512_S128x1024_1_1_0_0_n_n.lhsIdx (ix2 d c) ((ValueIdx.contrEquiv1 dot_S128x512_S1024x512_S128x1024_1_1_0_0_n_n 512 rfl rfl).symm k) = ix2 d k :=
    funext fun ax => Fin.ext (by
      match ax with
      | ⟨0, _⟩ => exact rowsRows_lhs_0 _ _
      | ⟨1, _⟩ => exact (rowsRows_lhs_1 _ _).trans hk)
  have er : dot_S128x512_S1024x512_S128x1024_1_1_0_0_n_n.rhsIdx (ix2 d c) ((ValueIdx.contrEquiv1 dot_S128x512_S1024x512_S128x1024_1_1_0_0_n_n 512 rfl rfl).symm k) = ix2 c k :=
    funext fun ax => Fin.ext (by
      match ax with
      | ⟨0, _⟩ => exact rowsRows_rhs_0 _ _
      | ⟨1, _⟩ => exact (rowsRows_rhs_1 _ _).trans hk)
  rw [el, er]

theorem colsCols_lhs_0 (j : S512x128.Idx) (k : dot_S1024x512_S1024x128_S512x128_0_0_1_1_n_n.contr.Idx) :
    (dot_S1024x512_S1024x128_S512x128_0_0_1_1_n_n.lhsIdx j k 0).val = (k ⟨0, by decide⟩).val :=
  dot_S1024x512_S1024x128_S512x128_0_0_1_1_n_n.lhsIdx_val_of_single rfl j k
theorem colsCols_lhs_1 (j : S512x128.Idx) (k : dot_S1024x512_S1024x128_S512x128_0_0_1_1_n_n.contr.Idx) :
    (dot_S1024x512_S1024x128_S512x128_0_0_1_1_n_n.lhsIdx j k 1).val = (j 0).val := by
  unfold DotDims.lhsIdx
  rw [dif_neg (show ¬(1 : Fin S1024x512.rank) ∈ dot_S1024x512_S1024x128_S512x128_0_0_1_1_n_n.lhsBatch by decide), dif_pos (show (1 : Fin S1024x512.rank) ∈ dot_S1024x512_S1024x128_S512x128_0_0_1_1_n_n.lhsNonContracting by decide)]
  rfl
theorem colsCols_rhs_0 (j : S512x128.Idx) (k : dot_S1024x512_S1024x128_S512x128_0_0_1_1_n_n.contr.Idx) :
    (dot_S1024x512_S1024x128_S512x128_0_0_1_1_n_n.rhsIdx j k 0).val = (k ⟨0, by decide⟩).val :=
  dot_S1024x512_S1024x128_S512x128_0_0_1_1_n_n.rhsIdx_val_of_single rfl j k
theorem colsCols_rhs_1 (j : S512x128.Idx) (k : dot_S1024x512_S1024x128_S512x128_0_0_1_1_n_n.contr.Idx) :
    (dot_S1024x512_S1024x128_S512x128_0_0_1_1_n_n.rhsIdx j k 1).val = (j 1).val := by
  unfold DotDims.rhsIdx
  rw [dif_neg (show ¬(1 : Fin S1024x128.rank) ∈ dot_S1024x512_S1024x128_S512x128_0_0_1_1_n_n.rhsBatch by decide), dif_pos (show (1 : Fin S1024x128.rank) ∈ dot_S1024x512_S1024x128_S512x128_0_0_1_1_n_n.rhsNonContracting by decide)]
  rfl

/-- Columns of the left operand against columns of the right one (both contract their first axis): entry (q, d) is Σ_k a[k, q] · b[k, d]. -/
theorem colsCols_apply (a : FVec Ideal S1024x512 .bf16) (b : FVec Ideal S1024x128 .bf16) (q : Fin 512) (d : Fin 128) :
    matmul dot_S1024x512_S1024x128_S512x128_0_0_1_1_n_n none a b (constant S512x128 .f32 0x00000000#32) (ix2 q d)
      = ∑ k : Fin 1024, a (ix2 k q) * b (ix2 k d) := by
  refine (Ideal.matmul_constant_zero_apply _ none a b (ix2 q d)).trans ?_
  rw [← Equiv.sum_comp (ValueIdx.contrEquiv1 dot_S1024x512_S1024x128_S512x128_0_0_1_1_n_n 1024 rfl rfl).symm]
  refine Finset.sum_congr rfl fun k _ => ?_
  have hk := ValueIdx.contrEquiv1_symm_val dot_S1024x512_S1024x128_S512x128_0_0_1_1_n_n 1024 rfl rfl k
  have el : dot_S1024x512_S1024x128_S512x128_0_0_1_1_n_n.lhsIdx (ix2 q d) ((ValueIdx.contrEquiv1 dot_S1024x512_S1024x128_S512x128_0_0_1_1_n_n 1024 rfl rfl).symm k) = ix2 k q :=
    funext fun ax => Fin.ext (by
      match ax with
      | ⟨0, _⟩ => exact (colsCols_lhs_0 _ _).trans hk
      | ⟨1, _⟩ => exact colsCols_lhs_1 _ _)
  have er : dot_S1024x512_S1024x128_S512x128_0_0_1_1_n_n.rhsIdx (ix2 q d) ((ValueIdx.contrEquiv1 dot_S1024x512_S1024x128_S512x128_0_0_1_1_n_n 1024 rfl rfl).symm k) = ix2 k d :=
    funext fun ax => Fin.ext (by
      match ax with
      | ⟨0, _⟩ => exact (colsCols_rhs_0 _ _).trans hk
      | ⟨1, _⟩ => exact colsCols_rhs_1 _ _)
  rw [el, er]

theorem colsRows_lhs_0 (j : S128x1024.Idx) (k : dot_S512x128_S1024x512_S128x1024_0_1_1_0_n_n.contr.Idx) :
    (dot_S512x128_S1024x512_S128x1024_0_1_1_0_n_n.lhsIdx j k 0).val = (k ⟨0, by decide⟩).val :=
  dot_S512x128_S1024x512_S128x1024_0_1_1_0_n_n.lhsIdx_val_of_single rfl j k
theorem colsRows_lhs_1 (j : S128x1024.Idx) (k : dot_S512x128_S1024x512_S128x1024_0_1_1_0_n_n.contr.Idx) :
    (dot_S512x128_S1024x512_S128x1024_0_1_1_0_n_n.lhsIdx j k 1).val = (j 0).val := by
  unfold DotDims.lhsIdx
  rw [dif_neg (show ¬(1 : Fin S512x128.rank) ∈ dot_S512x128_S1024x512_S128x1024_0_1_1_0_n_n.lhsBatch by decide), dif_pos (show (1 : Fin S512x128.rank) ∈ dot_S512x128_S1024x512_S128x1024_0_1_1_0_n_n.lhsNonContracting by decide)]
  rfl
theorem colsRows_rhs_0 (j : S128x1024.Idx) (k : dot_S512x128_S1024x512_S128x1024_0_1_1_0_n_n.contr.Idx) :
    (dot_S512x128_S1024x512_S128x1024_0_1_1_0_n_n.rhsIdx j k 0).val = (j 1).val := by
  unfold DotDims.rhsIdx
  rw [dif_neg (show ¬(0 : Fin S1024x512.rank) ∈ dot_S512x128_S1024x512_S128x1024_0_1_1_0_n_n.rhsBatch by decide), dif_pos (show (0 : Fin S1024x512.rank) ∈ dot_S512x128_S1024x512_S128x1024_0_1_1_0_n_n.rhsNonContracting by decide)]
  rfl
theorem colsRows_rhs_1 (j : S128x1024.Idx) (k : dot_S512x128_S1024x512_S128x1024_0_1_1_0_n_n.contr.Idx) :
    (dot_S512x128_S1024x512_S128x1024_0_1_1_0_n_n.rhsIdx j k 1).val = (k ⟨0, by decide⟩).val :=
  dot_S512x128_S1024x512_S128x1024_0_1_1_0_n_n.rhsIdx_val_of_single rfl j k

/-- Columns of the left operand against rows of the right one (the left contracts its first axis, the right its second): entry (d, c) is Σ_k a[k, d] · b[c, k]. -/
theorem colsRows_apply (a : FVec Ideal S512x128 .bf16) (b : FVec Ideal S1024x512 .bf16) (d : Fin 128) (c : Fin 1024) :
    matmul dot_S512x128_S1024x512_S128x1024_0_1_1_0_n_n none a b (constant S128x1024 .f32 0x00000000#32) (ix2 d c)
      = ∑ k : Fin 512, a (ix2 k d) * b (ix2 c k) := by
  refine (Ideal.matmul_constant_zero_apply _ none a b (ix2 d c)).trans ?_
  rw [← Equiv.sum_comp (ValueIdx.contrEquiv1 dot_S512x128_S1024x512_S128x1024_0_1_1_0_n_n 512 rfl rfl).symm]
  refine Finset.sum_congr rfl fun k _ => ?_
  have hk := ValueIdx.contrEquiv1_symm_val dot_S512x128_S1024x512_S128x1024_0_1_1_0_n_n 512 rfl rfl k
  have el : dot_S512x128_S1024x512_S128x1024_0_1_1_0_n_n.lhsIdx (ix2 d c) ((ValueIdx.contrEquiv1 dot_S512x128_S1024x512_S128x1024_0_1_1_0_n_n 512 rfl rfl).symm k) = ix2 k d :=
    funext fun ax => Fin.ext (by
      match ax with
      | ⟨0, _⟩ => exact (colsRows_lhs_0 _ _).trans hk
      | ⟨1, _⟩ => exact colsRows_lhs_1 _ _)
  have er : dot_S512x128_S1024x512_S128x1024_0_1_1_0_n_n.rhsIdx (ix2 d c) ((ValueIdx.contrEquiv1 dot_S512x128_S1024x512_S128x1024_0_1_1_0_n_n 512 rfl rfl).symm k) = ix2 c k :=
    funext fun ax => Fin.ext (by
      match ax with
      | ⟨0, _⟩ => exact colsRows_rhs_0 _ _
      | ⟨1, _⟩ => exact (colsRows_rhs_1 _ _).trans hk)
  rw [el, er]

/-- The cast of an f32 vector to the narrower format is the identity on the extended reals, entry by entry. -/
theorem narrowCast_entry {s : Shape} (a : FVec Ideal s .f32) (h : FTy.bf16.bits < FTy.f32.bits) (i : s.Idx) :
    (truncf .bf16 a h : FVec Ideal s .bf16) i = a i := rfl

/-- Equal factors give equal products. -/
theorem product_congr {a a' b b' : EReal} (h₁ : a = a') (h₂ : b = b') : a * b = a' * b' := by rw [h₁, h₂]

/-! ## The softmax over context read at an index -/

/-- On the extended reals a float sum over the first axis of an [a, b] matrix reads, at column j, the sum of that
    column's entries: the index over j with coordinate f put back on the summed axis is (f, j). -/
theorem multiReduction_add_firstAxis_apply {a b : ℕ} (x : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ) (j : Fin b) :
    multiReduction .add [0] ⟨1, ![b]⟩ x acc h hφ hacc (ix1 j) = ∑ f : Fin a, x (ix2 f j) := by
  refine (Ideal.multiReduction_add_single x acc h hφ hacc (ix1 j)).trans ?_
  exact Finset.sum_congr rfl fun f _ => congrArg x (funext fun ax => Fin.ext (by
    match ax with
    | ⟨0, _⟩ => rfl
    | ⟨1, _⟩ => rfl))

/-- The column sums of x, kept as a row and spread back over every row, read Σ_f x[f, j] at every (i, j). -/
theorem colSum_keepdims_broadcast_apply {a b : ℕ} (x : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ)
    (hc : (⟨1, ![b]⟩ : Shape).ShapeCasts ⟨2, ![1, b]⟩) (hb : (⟨2, ![1, b]⟩ : Shape).Broadcasts ⟨2, ![a, b]⟩)
    (i : Fin a) (j : Fin b) :
    broadcastTo ⟨2, ![a, b]⟩ (shapeCast ⟨2, ![1, b]⟩ (multiReduction .add [0] ⟨1, ![b]⟩ x acc h hφ hacc) hc) hb (ix2 i j)
      = ∑ f : Fin a, x (ix2 f j) :=
  (broadcastTo_1b_ab_apply _ hb i j).trans
    ((shapeCast_a_1a_apply _ hc 0 j).trans (multiReduction_add_firstAxis_apply x acc h hφ hacc j))

/-- The exponentials of a matrix shifted by a column-constant matrix m (m[c, q] = M q for every c), each divided by its
    column's sum of them kept as a row and spread back over the column. -/
theorem expShiftOverColSum_apply (x m : FVec Ideal S1024x512 .f32) (M : Fin 512 → EReal)
    (hm : ∀ (c : Fin 1024) (q : Fin 512), m (ix2 c q) = M q)
    (h : S1024x512.Reduces [0] S512) (hφ : FKind.Formats .f32)
    (hacc : (0x00000000#32 : BitVec FTy.f32.bits) = FKind.add.neutral .f32 hφ)
    (hc : S512.ShapeCasts S1x512) (hb : S1x512.Broadcasts S1024x512) (c : Fin 1024) (q : Fin 512) :
    divf (exp (subf x m))
        (broadcastTo S1024x512 (shapeCast S1x512 (multiReduction .add [0] S512 (exp (subf x m)) 0x00000000#32 h hφ hacc) hc) hb)
        (ix2 c q)
      = Ideal.div (Ideal.exp (x (ix2 c q) - M q)) (∑ c' : Fin 1024, Ideal.exp (x (ix2 c' q) - M q)) := by
  have hs := colSum_keepdims_broadcast_apply (exp (subf x m)) 0x00000000#32 h hφ hacc hc hb c q
  have he : ∀ c' : Fin 1024, exp (subf x m) (ix2 c' q) = Ideal.exp (x (ix2 c' q) - M q) := fun c' =>
    congrArg (fun t : EReal => Ideal.exp (x (ix2 c' q) - t)) (hm c' q)
  exact (divf_apply _ _ (ix2 c q)).trans
    (congrArg₂ Ideal.div (he c) (hs.trans (Finset.sum_congr rfl fun c' _ => he c')))

/-! ## The stored quarters -/

section Mix

variable (v1 : FVec Ideal S128x1024 .f32) (v4 : FVec Ideal S1024x128 .f32) (v17 : FVec Ideal S128x512 .bf16)
  (v22 v33 : FVec Ideal S1024x512 .f32) (v36 : FVec Ideal S512 .f32) (d : Fin 128) (c : Fin 1024)

/-- The query mix before it is scaled: Σ_q Q[d, q] · P₁[c, q]; the cast of P₁ to the narrower format is the identity on
    the extended reals. -/
theorem pay2_apply : k0_pay2 (F := Ideal) v17 v33 (ix2 d c) = ∑ q : Fin 512, v17 (ix2 d q) * v33 (ix2 c q) := by
  unfold k0_pay2 k0_pay1
  exact rowsRows_apply v17 _ d c

/-- The same sum read through the cast [128, 1024] → [1, 128, 1024]. -/
theorem pay4_apply : k0_pay4 (F := Ideal) v17 v33 (ix3 (0 : Fin 1) d c) = ∑ q : Fin 512, v17 (ix2 d q) * v33 (ix2 c q) := by
  unfold k0_pay4
  exact (shapeCast_ab_1ab_apply _ _ 0 d c).trans (pay2_apply v17 v33 d c)

/-- The query mix scaled pointwise by C[d, c]. -/
theorem pay5_apply : k0_pay5 (F := Ideal) v1 v17 v33 (ix3 (0 : Fin 1) d c) = v1 (ix2 d c) * ∑ q : Fin 512, v17 (ix2 d q) * v33 (ix2 c q) := by
  unfold k0_pay5
  exact (shapeCast_ab_1ab_apply _ _ 0 d c).trans (congrArg (v1 (ix2 d c) * ·) (pay2_apply v17 v33 d c))

/-- The double mix scaled pointwise by C[d, c]: the softmax over context of the score (its column maxima given), its
    columns against the columns of Cᵀ, and the columns of that product against the rows of P₁; the casts to the
    narrower format are the identity on the extended reals. -/
theorem pay6_apply (hmax : ∀ q : Fin 512, v36 (ix1 q) = CQAttn.colMax (fun c q => v22 (ix2 c q)) q) :
    k0_pay6 (F := Ideal) v1 v4 v22 v33 v36 (ix3 (0 : Fin 1) d c)
      = v1 (ix2 d c) * ∑ q : Fin 512, (∑ k : Fin 1024, CQAttn.overContext (fun c q => v22 (ix2 c q)) k q * v4 (ix2 k d)) * v33 (ix2 c q) := by
  unfold k0_pay6 k0_pay1
  refine (shapeCast_ab_1ab_apply _ _ 0 d c).trans ?_
  refine (mulf_apply v1 _ (ix2 d c)).trans ?_
  refine congrArg (v1 (ix2 d c) * ·) ?_
  refine (colsRows_apply _ _ d c).trans ?_
  refine Finset.sum_congr rfl fun q _ => ?_
  refine product_congr ?_ (narrowCast_entry v33 _ (ix2 c q))
  refine (narrowCast_entry _ _ (ix2 q d)).trans ?_
  refine (colsCols_apply _ _ q d).trans ?_
  refine Finset.sum_congr rfl fun k _ => ?_
  refine product_congr ?_ (narrowCast_entry v4 _ (ix2 k d))
  refine (narrowCast_entry _ _ (ix2 k q)).trans ?_
  exact expShiftOverColSum_apply v22 _ (CQAttn.colMax fun c q => v22 (ix2 c q))
    (fun c' q' => (broadcastTo_1b_ab_apply _ _ c' q').trans ((shapeCast_a_1a_apply _ _ 0 q').trans (hmax q')))
    _ _ _ _ _ k q

end Mix

end Cert.KernelIdeal.Body
end
-- ==== Proof.KBlock.lean ====
/-
  What one grid point leaves in its output block, as one function of its three input blocks.

  The body stores four row-quarters of the [1, 512, 1024] output block: C itself, Aᵀ, C·Aᵀ and C·Bᵀ, each computed
  from the point's blocks of C, Q and the re-laid weights.  Read at (0, r, c) the block is CQAttn.attend of the block's
  C, Q and the three column panels of its weight block: the score of the loads is CQAttn.score (the fused contraction of
  depth 2·D, the bias added last), its two softmaxes are overQueries and overContext, the three contractions are
  queryMix, contextMix and doubleMix with their factors commuted (commutativity of · on the extended reals), and the
  four stores tile the block, so the block is one function of its index.
-/
import proofs.«110918_j15101105013508_2_alg».proof.Proof.Gen.KernelIdeal.Frame
import proofs.«110918_j15101105013508_2_alg».proof.Proof.Spec
import proofs.«110918_j15101105013508_2_alg».proof.Proof.KLayout
import proofs.«110918_j15101105013508_2_alg».proof.Proof.KScore
import proofs.«110918_j15101105013508_2_alg».proof.Proof.KSoftmax
import proofs.«110918_j15101105013508_2_alg».proof.Proof.KMix
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx

/-- The block's C, Q and the weight panel that starts at column off. -/
def blockC (x0 : Vec Ideal S1x128x1024 .f32) : Fin 128 → Fin 1024 → EReal := fun d c => x0 (ix3 (0 : Fin 1) d c)
def blockQ (x1 : Vec Ideal S1x128x512 .f32) : Fin 128 → Fin 512 → EReal := fun d q => x1 (ix3 (0 : Fin 1) d q)
def blockW (x2 : Vec Ideal S1x1024x384 .f32) (off : Nat) (hoff : off + 128 ≤ 384) : Fin 1024 → Fin 128 → EReal :=
  fun c d => x2 (ix3 (0 : Fin 1) c ⟨off + d.val, by have := d.isLt; omega⟩)

/-- The output block as a function of the input blocks. -/
def blockOut (x0 : Vec Ideal S1x128x1024 .f32) (x1 : Vec Ideal S1x128x512 .f32) (x2 : Vec Ideal S1x1024x384 .f32) :
    S1x512x1024.Idx → EReal :=
  fun y => CQAttn.attend (blockC x0) (blockQ x1) (blockW x2 0 (by omega)) (blockW x2 128 (by omega)) (blockW x2 256 (by omega))
    (y 1) (y 2)

/-! ## The four quarters of a row -/

section Quarters

variable (C : Fin 128 → Fin 1024 → EReal) (Q : Fin 128 → Fin 512 → EReal) (P₁ P₂ : Fin 1024 → Fin 512 → EReal)
  (r : Fin 512) (c' c : Fin 1024) (d : Fin 128)

theorem outRow_first (hr : r.val = d.val) (hc : c' = c) : CQAttn.outRow C Q P₁ P₂ r c' = C d c := by
  subst hc
  have hd := d.isLt
  unfold CQAttn.outRow
  rw [dif_pos (by omega)]
  exact congrArg (fun z => C z c') (Fin.ext hr)

theorem outRow_second (hr : r.val = 128 + d.val) (hc : c' = c) :
    CQAttn.outRow C Q P₁ P₂ r c' = CQAttn.queryMix Q P₁ c d := by
  subst hc
  have hd := d.isLt
  unfold CQAttn.outRow
  rw [dif_neg (by omega), dif_pos (by omega)]
  exact congrArg (fun z => CQAttn.queryMix Q P₁ c' z) (Fin.ext (by show r.val - 128 = d.val; omega))

theorem outRow_third (hr : r.val = 256 + d.val) (hc : c' = c) :
    CQAttn.outRow C Q P₁ P₂ r c' = C d c * CQAttn.queryMix Q P₁ c d := by
  subst hc
  have hd := d.isLt
  unfold CQAttn.outRow
  rw [dif_neg (by omega), dif_neg (by omega), dif_pos (by omega)]
  exact congrArg₂ (fun z w => C z c' * CQAttn.queryMix Q P₁ c' w) (Fin.ext (by show r.val - 256 = d.val; omega))
    (Fin.ext (by show r.val - 256 = d.val; omega))

theorem outRow_fourth (hr : r.val = 384 + d.val) (hc : c' = c) :
    CQAttn.outRow C Q P₁ P₂ r c' = C d c * CQAttn.doubleMix C P₁ P₂ c d := by
  subst hc
  have hd := d.isLt
  unfold CQAttn.outRow
  rw [dif_neg (by omega), dif_neg (by omega), dif_neg (by omega)]
  exact congrArg₂ (fun z w => C z c' * CQAttn.doubleMix C P₁ P₂ c' w) (Fin.ext (by show r.val - 384 = d.val; omega))
    (Fin.ext (by show r.val - 384 = d.val; omega))

end Quarters

/-! ## The loads -/

theorem zeros3 : (![0, 0, 0] : Fin 3 → Nat) = fun _ => 0 := funext fun a => by fin_cases a <;> rfl

variable (x0 : Vec Ideal S1x128x1024 .f32) (x1 : Vec Ideal S1x128x512 .f32) (x2 : Vec Ideal S1x1024x384 .f32)

/-- The body loads the whole blocks of C and Q. -/
theorem load_C : View.ld x0 r0_0 = x0 := View.ld_unit_zero zeros3 _ x0
theorem load_Q : View.ld x1 r0_1 = x1 := View.ld_unit_zero zeros3 _ x1

/-- and the three column panels of the weight block. -/
theorem load_wq : (fun c d => View.ld x2 r0_2 (ix3 (0 : Fin 1) c d)) = blockW x2 0 (by omega) :=
  funext fun c => funext fun d => congrArg x2 (funext fun a => Fin.ext (by
    match a with
    | ⟨0, _⟩ => rfl
    | ⟨1, _⟩ => show 0 + 1 * c.val = c.val; omega
    | ⟨2, _⟩ => show 0 + 1 * d.val = 0 + d.val; omega))
theorem load_wc : (fun c d => View.ld x2 r0_3 (ix3 (0 : Fin 1) c d)) = blockW x2 128 (by omega) :=
  funext fun c => funext fun d => congrArg x2 (funext fun a => Fin.ext (by
    match a with
    | ⟨0, _⟩ => rfl
    | ⟨1, _⟩ => show 0 + 1 * c.val = c.val; omega
    | ⟨2, _⟩ => show 128 + 1 * d.val = 128 + d.val; omega))
theorem load_wqc : (fun c d => View.ld x2 r0_4 (ix3 (0 : Fin 1) c d)) = blockW x2 256 (by omega) :=
  funext fun c => funext fun d => congrArg x2 (funext fun a => Fin.ext (by
    match a with
    | ⟨0, _⟩ => rfl
    | ⟨1, _⟩ => show 0 + 1 * c.val = c.val; omega
    | ⟨2, _⟩ => show 256 + 1 * d.val = 256 + d.val; omega))

/-! ## The score of the loads and its two softmaxes -/

/-- The block's score. -/
abbrev blockScore : Fin 1024 → Fin 512 → EReal :=
  CQAttn.score (blockC x0) (blockQ x1) (blockW x2 0 (by omega)) (blockW x2 128 (by omega)) (blockW x2 256 (by omega))

theorem score_of_loads :
    (fun c q => k0_pay10 (F := Ideal) x0 x1 (View.ld x2 r0_2) (View.ld x2 r0_3) (View.ld x2 r0_4) (ix2 c q))
      = blockScore x0 x1 x2 :=
  funext fun c => funext fun q => (score_apply x0 x1 (View.ld x2 r0_2) (View.ld x2 r0_3) (View.ld x2 r0_4) c q).trans (by
    rw [load_wq x2, load_wc x2, load_wqc x2]; rfl)

theorem softmaxQ_of_loads (c : Fin 1024) (q : Fin 512) :
    k0_pay11 (F := Ideal) x0 x1 (View.ld x2 r0_2) (View.ld x2 r0_3) (View.ld x2 r0_4) (ix2 c q)
      = CQAttn.overQueries (blockScore x0 x1 x2) c q :=
  (softmaxQ_apply x0 x1 (View.ld x2 r0_2) (View.ld x2 r0_3) (View.ld x2 r0_4) c q).trans (by rw [score_of_loads x0 x1 x2])

theorem colMax_of_loads (q : Fin 512) :
    k0_pay12 (F := Ideal) x0 x1 (View.ld x2 r0_2) (View.ld x2 r0_3) (View.ld x2 r0_4) (ix1 q)
      = CQAttn.colMax (fun c q => k0_pay10 (F := Ideal) x0 x1 (View.ld x2 r0_2) (View.ld x2 r0_3) (View.ld x2 r0_4) (ix2 c q)) q :=
  colMax_apply x0 x1 (View.ld x2 r0_2) (View.ld x2 r0_3) (View.ld x2 r0_4) q

/-! ## The four stored quarters at (0, d, c) -/

/-- Aᵀ at (d, c): Σ_q Q d q · P₁ c q, the factors commuted. -/
theorem queryMix_of_loads (d : Fin 128) (c : Fin 1024) :
    (∑ q : Fin 512, k0_pay9 (F := Ideal) x1 (ix2 d q)
        * k0_pay11 (F := Ideal) x0 x1 (View.ld x2 r0_2) (View.ld x2 r0_3) (View.ld x2 r0_4) (ix2 c q))
      = CQAttn.queryMix (blockQ x1) (CQAttn.overQueries (blockScore x0 x1 x2)) c d :=
  Finset.sum_congr rfl fun q _ => by
    rw [pay9_apply x1 d q, softmaxQ_of_loads x0 x1 x2 c q]
    exact mul_comm _ _

theorem first_quarter (d : Fin 128) (c : Fin 1024) :
    k0_pay3 (F := Ideal) (k0_pay7 x0) (ix3 (0 : Fin 1) d c) = blockC x0 d c :=
  (pay3_apply (k0_pay7 x0) d c).trans (pay7_apply x0 d c)

theorem second_quarter (d : Fin 128) (c : Fin 1024) :
    k0_pay4 (F := Ideal) (k0_pay9 x1) (k0_pay11 x0 x1 (View.ld x2 r0_2) (View.ld x2 r0_3) (View.ld x2 r0_4)) (ix3 (0 : Fin 1) d c)
      = CQAttn.queryMix (blockQ x1) (CQAttn.overQueries (blockScore x0 x1 x2)) c d :=
  (pay4_apply (k0_pay9 x1) (k0_pay11 x0 x1 (View.ld x2 r0_2) (View.ld x2 r0_3) (View.ld x2 r0_4)) d c).trans
    (queryMix_of_loads x0 x1 x2 d c)

theorem third_quarter (d : Fin 128) (c : Fin 1024) :
    k0_pay5 (F := Ideal) (k0_pay7 x0) (k0_pay9 x1) (k0_pay11 x0 x1 (View.ld x2 r0_2) (View.ld x2 r0_3) (View.ld x2 r0_4))
        (ix3 (0 : Fin 1) d c)
      = blockC x0 d c * CQAttn.queryMix (blockQ x1) (CQAttn.overQueries (blockScore x0 x1 x2)) c d :=
  (pay5_apply (k0_pay7 x0) (k0_pay9 x1) (k0_pay11 x0 x1 (View.ld x2 r0_2) (View.ld x2 r0_3) (View.ld x2 r0_4)) d c).trans
    (congrArg₂ (· * ·) (pay7_apply x0 d c) (queryMix_of_loads x0 x1 x2 d c))

theorem fourth_quarter (d : Fin 128) (c : Fin 1024) :
    k0_pay6 (F := Ideal) (k0_pay7 x0) (k0_pay8 x0) (k0_pay10 x0 x1 (View.ld x2 r0_2) (View.ld x2 r0_3) (View.ld x2 r0_4))
        (k0_pay11 x0 x1 (View.ld x2 r0_2) (View.ld x2 r0_3) (View.ld x2 r0_4))
        (k0_pay12 x0 x1 (View.ld x2 r0_2) (View.ld x2 r0_3) (View.ld x2 r0_4)) (ix3 (0 : Fin 1) d c)
      = blockC x0 d c * CQAttn.doubleMix (blockC x0) (CQAttn.overQueries (blockScore x0 x1 x2))
          (CQAttn.overContext (blockScore x0 x1 x2)) c d := by
  refine (pay6_apply (k0_pay7 x0) (k0_pay8 x0) (k0_pay10 x0 x1 (View.ld x2 r0_2) (View.ld x2 r0_3) (View.ld x2 r0_4))
    (k0_pay11 x0 x1 (View.ld x2 r0_2) (View.ld x2 r0_3) (View.ld x2 r0_4))
    (k0_pay12 x0 x1 (View.ld x2 r0_2) (View.ld x2 r0_3) (View.ld x2 r0_4)) d c (colMax_of_loads x0 x1 x2)).trans ?_
  rw [score_of_loads x0 x1 x2]
  refine congrArg₂ (· * ·) (pay7_apply x0 d c) (Finset.sum_congr rfl fun q _ => ?_)
  rw [softmaxQ_of_loads x0 x1 x2 c q, mul_comm]
  refine congrArg (CQAttn.overQueries (blockScore x0 x1 x2) c q * ·) (Finset.sum_congr rfl fun k _ => ?_)
  rw [pay8_apply x0 k d]
  rfl

/-! ## The block -/

/-- An index of a [1, 128, 1024] block is (0, d, c). -/
theorem quarter_index (x : S1x128x1024.Idx) : x = ix3 (0 : Fin 1) (x 1) (x 2) :=
  funext fun a => Fin.ext (by
    match a with
    | ⟨0, _⟩ => have h : (x 0).val < 1 := (x 0).isLt; show (x 0).val = 0; omega
    | ⟨1, _⟩ => rfl
    | ⟨2, _⟩ => rfl)

/-- Each stored quarter, at every index of its [1, 128, 1024] piece, is the block function at the index the piece's
    rectangle sends it to (row offset 0, 128, 256 or 384). -/
theorem first_piece (x : S1x128x1024.Idx) :
    k0_pay3 (F := Ideal) (k0_pay7 x0) x = blockOut x0 x1 x2 (r0_5.emb x) := by
  obtain ⟨d, c, rfl⟩ : ∃ (d : Fin 128) (c : Fin 1024), x = ix3 (0 : Fin 1) d c := ⟨x 1, x 2, quarter_index x⟩
  refine (first_quarter x0 d c).trans ?_
  exact (outRow_first _ _ _ _ _ _ c d (by show 0 + 1 * d.val = d.val; omega)
    (Fin.ext (by show 0 + 1 * c.val = c.val; omega))).symm

theorem second_piece (x : S1x128x1024.Idx) :
    k0_pay4 (F := Ideal) (k0_pay9 x1) (k0_pay11 x0 x1 (View.ld x2 r0_2) (View.ld x2 r0_3) (View.ld x2 r0_4)) x
      = blockOut x0 x1 x2 (r0_6.emb x) := by
  obtain ⟨d, c, rfl⟩ : ∃ (d : Fin 128) (c : Fin 1024), x = ix3 (0 : Fin 1) d c := ⟨x 1, x 2, quarter_index x⟩
  refine (second_quarter x0 x1 x2 d c).trans ?_
  exact (outRow_second _ _ _ _ _ _ c d (by show 128 + 1 * d.val = 128 + d.val; omega)
    (Fin.ext (by show 0 + 1 * c.val = c.val; omega))).symm

theorem third_piece (x : S1x128x1024.Idx) :
    k0_pay5 (F := Ideal) (k0_pay7 x0) (k0_pay9 x1) (k0_pay11 x0 x1 (View.ld x2 r0_2) (View.ld x2 r0_3) (View.ld x2 r0_4)) x
      = blockOut x0 x1 x2 (r0_7.emb x) := by
  obtain ⟨d, c, rfl⟩ : ∃ (d : Fin 128) (c : Fin 1024), x = ix3 (0 : Fin 1) d c := ⟨x 1, x 2, quarter_index x⟩
  refine (third_quarter x0 x1 x2 d c).trans ?_
  exact (outRow_third _ _ _ _ _ _ c d (by show 256 + 1 * d.val = 256 + d.val; omega)
    (Fin.ext (by show 0 + 1 * c.val = c.val; omega))).symm

theorem fourth_piece (x : S1x128x1024.Idx) :
    k0_pay6 (F := Ideal) (k0_pay7 x0) (k0_pay8 x0) (k0_pay10 x0 x1 (View.ld x2 r0_2) (View.ld x2 r0_3) (View.ld x2 r0_4))
        (k0_pay11 x0 x1 (View.ld x2 r0_2) (View.ld x2 r0_3) (View.ld x2 r0_4))
        (k0_pay12 x0 x1 (View.ld x2 r0_2) (View.ld x2 r0_3) (View.ld x2 r0_4)) x
      = blockOut x0 x1 x2 (r0_8.emb x) := by
  obtain ⟨d, c, rfl⟩ : ∃ (d : Fin 128) (c : Fin 1024), x = ix3 (0 : Fin 1) d c := ⟨x 1, x 2, quarter_index x⟩
  refine (fourth_quarter x0 x1 x2 d c).trans ?_
  exact (outRow_fourth _ _ _ _ _ _ c d (by show 384 + 1 * d.val = 384 + d.val; omega)
    (Fin.ext (by show 0 + 1 * c.val = c.val; omega))).symm

/-- The body's four stores leave exactly that block: the four pieces tile it, and each is the block function on its
    rectangle. -/
theorem out_eq : out0_3 (F := Ideal) x0 x1 x2 = blockOut x0 x1 x2 := by
  funext y
  unfold out0_3
  rw [load_C x0, load_Q x1]
  refine View.canon_apply_of_pieces (Val := Elt Ideal) (blockOut x0 x1 x2) _ ?_ y (cover0_3 _ _ _ _ y)
  intro p hp x
  simp only [List.mem_cons, List.mem_nil_iff, or_false] at hp
  rcases hp with rfl | rfl | rfl | rfl
  · exact fourth_piece x0 x1 x2 x
  · exact third_piece x0 x1 x2 x
  · exact second_piece x0 x1 x2 x
  · exact first_piece x0 x1 x2 x

end Cert.KernelIdeal.Body

end
-- ==== Proof.KArray.lean ====
/-
  The whole output array after the run, as one function of the argument arrays.

  The grid has 32 points, one per batch: at point t every window's block index is (t, 0, 0), so the point's blocks of
  C, Q and the re-laid weights are batch t of the three arrays, whole on their other two axes, and its output block
  is batch t of the output array.  The weights reach the region re-laid by the host, the [32768, 1, 384] argument read
  as [32, 1024, 384]; the other two arrays are the arguments as launched.  What the body leaves in the output block at
  (0, r, c) is attend of the block's C, Q and three weight panels at (r, c); batch t of the specification's result at
  (t, r, c) is attend of batch t of the arrays at (r, c): the same seven arguments.  A block's place in its array on an
  axis is the block index times the block's extent plus the coordinate inside, which for block index (t, 0, 0) and
  extents (1, ·, ·) is (t, r, c).  The 32 output blocks tile the output array (index i lies in the block of point i₀),
  so after the run the array is the specification's result everywhere, and the three arguments are as launched.
  The helper statements live in the namespace Whole; flushed_eq, final and run beside it.
-/
import proofs.«110918_j15101105013508_2_alg».proof.Proof.Gen.KernelIdeal.Value
import proofs.«110918_j15101105013508_2_alg».proof.Proof.KBlock
import proofs.«110918_j15101105013508_2_alg».proof.Proof.Spec
import Idealize.ShloMosaic.Lib.Pipeline.Value
import Idealize.ShloMosaic.Lib.ValueIdx
import Idealize.ShloMosaic.Lib.StableHlo.Run

noncomputable section

namespace Cert.KernelIdeal.Body

open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The re-laid weights as the region finds them: the [32768, 1, 384] argument read as [32, 1024, 384]. -/
abbrev relaid (c : Dev nD) : S32x1024x384.Idx → EReal :=
  shapeCast S32x1024x384 (m ((c : Thread nD τ).loc main_arg2)) shapeCasts_S32768x1x384_S32x1024x384

/-- The whole result from the launch contents. -/
abbrev wholeResult (c : Dev nD) : S32x512x1024.Idx → EReal :=
  CQAttn.result (m ((c : Thread nD τ).loc main_arg0)) (m ((c : Thread nD τ).loc main_arg1)) (relaid m c)

namespace Whole

/-- At grid point t every window's block index is (t, 0, 0): one batch per point, the other two axes whole. -/
theorem index_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The re-laid weight array the region finds is the host's re-laying of the third argument. -/
theorem V_relaid (c : Dev nD) : (V m c main_v0 : S32x1024x384.Idx → EReal) = relaid m c := by
  dsimp only [Gen.V, Gen.hostOps0]
  after_results
  rfl

/-- Point t's block of C at (0, d, k) is the first argument at (t, d, k). -/
theorem blockC_of_point (c : Dev nD) (t : Fin cfg0.N) (d : Fin 128) (k : Fin 1024) :
    (iblk m c 0 t : Vec Ideal S1x128x1024 .f32) (ix3 (0 : Fin 1) d k)
      = (m ((c : Thread nD τ).loc main_arg0) : S32x128x1024.Idx → EReal) (ix3 ⟨t.val, t.isLt⟩ d k) := by
  obtain ⟨⟨e0, e1, e2⟩, -, -, -⟩ := index_facts t
  unfold iblk
  rw [View.read_apply]
  show V m c main_arg0 _ = _
  rw [V_main_arg0]
  congr 1
  funext a
  apply Fin.ext
  match a with
  | ⟨0, _⟩ => show win0_0.index t (0 : Fin 3) * 1 + 1 * 0 = t.val; omega
  | ⟨1, _⟩ => show win0_0.index t (1 : Fin 3) * 128 + 1 * d.val = d.val; omega
  | ⟨2, _⟩ => show win0_0.index t (2 : Fin 3) * 1024 + 1 * k.val = k.val; omega

/-- Point t's block of Q at (0, d, q) is the second argument at (t, d, q). -/
theorem blockQ_of_point (c : Dev nD) (t : Fin cfg0.N) (d : Fin 128) (q : Fin 512) :
    (iblk m c 1 t : Vec Ideal S1x128x512 .f32) (ix3 (0 : Fin 1) d q)
      = (m ((c : Thread nD τ).loc main_arg1) : S32x128x512.Idx → EReal) (ix3 ⟨t.val, t.isLt⟩ d q) := by
  obtain ⟨-, ⟨e0, e1, e2⟩, -, -⟩ := index_facts t
  unfold iblk
  rw [View.read_apply]
  show V m c main_arg1 _ = _
  rw [V_main_arg1]
  congr 1
  funext a
  apply Fin.ext
  match a with
  | ⟨0, _⟩ => show win0_1.index t (0 : Fin 3) * 1 + 1 * 0 = t.val; omega
  | ⟨1, _⟩ => show win0_1.index t (1 : Fin 3) * 128 + 1 * d.val = d.val; omega
  | ⟨2, _⟩ => show win0_1.index t (2 : Fin 3) * 512 + 1 * q.val = q.val; omega

/-- Point t's block of the re-laid weights at (0, k, j) is the re-laid array at (t, k, j). -/
theorem blockW_of_point (c : Dev nD) (t : Fin cfg0.N) (k : Fin 1024) (j : Fin 384) :
    (iblk m c 2 t : Vec Ideal S1x1024x384 .f32) (ix3 (0 : Fin 1) k j) = relaid m c (ix3 ⟨t.val, t.isLt⟩ k j) := by
  obtain ⟨-, -, ⟨e0, e1, e2⟩, -⟩ := index_facts t
  unfold iblk
  rw [View.read_apply]
  show (V m c main_v0 : S32x1024x384.Idx → EReal) _ = _
  rw [V_relaid]
  refine congrArg (relaid m c) (funext fun a => Fin.ext ?_)
  match a with
  | ⟨0, _⟩ => show win0_2.index t (0 : Fin 3) * 1 + 1 * 0 = t.val; omega
  | ⟨1, _⟩ => show win0_2.index t (1 : Fin 3) * 1024 + 1 * k.val = k.val; omega
  | ⟨2, _⟩ => show win0_2.index t (2 : Fin 3) * 384 + 1 * j.val = j.val; omega

/-- So the block's C is batch t of the first argument, -/
theorem blockC_eq (c : Dev nD) (t : Fin cfg0.N) (b : Fin 32) (hb : b.val = t.val) :
    blockC (iblk m c 0 t) = CQAttn.batchC (m ((c : Thread nD τ).loc main_arg0)) b := by
  obtain rfl : b = ⟨t.val, t.isLt⟩ := Fin.ext hb
  funext d k
  exact blockC_of_point m c t d k

/-- its Q is batch t of the second, -/
theorem blockQ_eq (c : Dev nD) (t : Fin cfg0.N) (b : Fin 32) (hb : b.val = t.val) :
    blockQ (iblk m c 1 t) = CQAttn.batchQ (m ((c : Thread nD τ).loc main_arg1)) b := by
  obtain rfl : b = ⟨t.val, t.isLt⟩ := Fin.ext hb
  funext d q
  exact blockQ_of_point m c t d q

/-- and each of its weight panels is the same panel of batch t of the re-laid weights. -/
theorem blockW_eq (c : Dev nD) (t : Fin cfg0.N) (b : Fin 32) (hb : b.val = t.val) (off : Nat) (hoff : off + 128 ≤ 384) :
    blockW (iblk m c 2 t) off hoff = CQAttn.panel (relaid m c) off hoff b := by
  obtain rfl : b = ⟨t.val, t.isLt⟩ := Fin.ext hb
  funext k d
  exact blockW_of_point m c t k ⟨off + d.val, by have := d.isLt; omega⟩

/-- The attended block depends on its seven arguments only. -/
theorem attend_congr {C C' : Fin 128 → Fin 1024 → EReal} {Q Q' : Fin 128 → Fin 512 → EReal}
    {wq wq' wc wc' wqc wqc' : Fin 1024 → Fin 128 → EReal} {r r' : Fin 512} {k k' : Fin 1024}
    (hC : C = C') (hQ : Q = Q') (h1 : wq = wq') (h2 : wc = wc') (h3 : wqc = wqc') (hr : r = r') (hk : k = k') :
    CQAttn.attend C Q wq wc wqc r k = CQAttn.attend C' Q' wq' wc' wqc' r' k' := by
  rw [hC, hQ, h1, h2, h3, hr, hk]

/-- What point t leaves in its output block, at y, is the whole result at y's place in the array: the block's
    coordinate on an axis is the block index times the block's extent plus the coordinate inside, and the block index is
    (t, 0, 0). -/
theorem blockOut_of_point (c : Dev nD) (t : Fin cfg0.N) (y : S1x512x1024.Idx) :
    blockOut (iblk m c 0 t) (iblk m c 1 t) (iblk m c 2 t) y = wholeResult m c (((cfg0.win 3).blk t).view.emb y) := by
  obtain ⟨-, -, -, e0, e1, e2⟩ := index_facts t
  have hy0 : (y 0).val < 1 := (y 0).isLt
  have h0 : ((((cfg0.win 3).blk t).view.emb y) 0).val = t.val := by
    show win0_3.index t (0 : Fin 3) * 1 + 1 * (y 0).val = t.val; omega
  have h1 : y 1 = (((cfg0.win 3).blk t).view.emb y) 1 := Fin.ext (by
    show (y 1).val = win0_3.index t (1 : Fin 3) * 512 + 1 * (y 1).val; omega)
  have h2 : y 2 = (((cfg0.win 3).blk t).view.emb y) 2 := Fin.ext (by
    show (y 2).val = win0_3.index t (2 : Fin 3) * 1024 + 1 * (y 2).val; omega)
  exact attend_congr (blockC_eq m c t _ h0) (blockQ_eq m c t _ h0) (blockW_eq m c t _ h0 0 (by omega))
    (blockW_eq m c t _ h0 128 (by omega)) (blockW_eq m c t _ h0 256 (by omega)) h1 h2

/-- An index of the array is in point t's block iff each coordinate is in the block's range on its axis. -/
theorem mem_block (t : Fin cfg0.N) (i : S32x512x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v1).slice (win0_3.rect t)).set ↔ _
  rw [View.set_slice_whole, Rect.mem_set_unit]
  exact Iff.rfl

/-- The blocks tile the array: index i lies in the block of the point whose number is i's batch coordinate. -/
theorem covered (i : S32x512x1024.Idx) :
    ∃ t : Fin cfg0.N, (cfg0.win 3).flush t = true ∧ i ∈ ((cfg0.win 3).blk t).view.set := by
  have hi0 : (i 0).val < 32 := (i 0).isLt
  have hi1 : (i 1).val < 512 := (i 1).isLt
  have hi2 : (i 2).val < 1024 := (i 2).isLt
  refine ⟨⟨(i 0).val, hi0⟩, flush0_3 _, ?_⟩
  rw [mem_block]
  obtain ⟨-, -, -, e0, e1, e2⟩ := index_facts ⟨(i 0).val, hi0⟩
  have e0' : win0_3.index ⟨(i 0).val, hi0⟩ (0 : Fin 3) = (i 0).val := e0
  intro a
  match a with
  | ⟨0, _⟩ =>
    show win0_3.index ⟨(i 0).val, hi0⟩ (0 : Fin 3) * 1 ≤ (i 0).val
      ∧ (i 0).val < win0_3.index ⟨(i 0).val, hi0⟩ (0 : Fin 3) * 1 + 1
    omega
  | ⟨1, _⟩ =>
    show win0_3.index ⟨(i 0).val, hi0⟩ (1 : Fin 3) * 512 ≤ (i 1).val
      ∧ (i 1).val < win0_3.index ⟨(i 0).val, hi0⟩ (1 : Fin 3) * 512 + 512
    omega
  | ⟨2, _⟩ =>
    show win0_3.index ⟨(i 0).val, hi0⟩ (2 : Fin 3) * 1024 ≤ (i 2).val
      ∧ (i 2).val < win0_3.index ⟨(i 0).val, hi0⟩ (2 : Fin 3) * 1024 + 1024
    omega

end Whole

open Whole

/-- WHAT POINT t WRITES BACK is block t of the whole result. -/
theorem flushed_eq (c : Dev nD) (t : Fin cfg0.N) :
    (dats m 0 c).flushed 3 t = ((cfg0.win 3).blk t).view.read (Elt Ideal) (wholeResult m c) := by
  rw [Value.flushed3]
  funext y
  show out0_3 (F := Ideal) (iblk m c 0 t) (iblk m c 1 t) (iblk m c 2 t) y
    = wholeResult m c (((cfg0.win 3).blk t).view.emb y)
  rw [out_eq]
  exact blockOut_of_point m c t y

/-- THE ARRAY after the run: the whole result. -/
theorem final (c : Dev nD) : (dats m 0 c).arrAt 3 cfg0.N = wholeResult m c :=
  (dats m 0 c).arrAt_eq_of_cover 3 (wholeResult m c) (fun t _ => flushed_eq m c t) covered

/-! ## The run, read -/

/-- The frame run re-posted: the output array at the whole result of the arguments, the arguments unchanged. -/
theorem run : θ_run defs (onTc (τ := τ) (main (F := Ideal))) ⟨m, fun _ => 0, ρ⟩ fun r => ∀ c : Dev nD,
      r.2.mem ((c : Thread nD τ).loc main_v1) = wholeResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Body

end
-- ==== Proof.RefScore.lean ====
/-
  The reference's score, read at an index.

  Stage by stage the reference forms, for batch b, the three terms of the trilinear score at (c, q): the contraction of
  the first weight panel with Qᵀ, the row sum of the second panel against Cᵀ (kept as a column and spread over q), and the
  contraction of (third panel · Cᵀ) with Qᵀ, and adds them in that order.  Read index by index through the layout
  operations (two transposes, three column slices of the re-laid weights, two broadcasts) this is CQAttn.score of batch
  b's C, Q and weight panels.  The host's sum starts from the pattern of zero, which is the extended real 0.
-/
import proofs.«110918_j15101105013508_2_alg».proof.Proof.RefReadP
import proofs.«110918_j15101105013508_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

variable (x0 : (⟨S32x128x1024, .f32⟩ : BufTy).Contents (Elt Ideal)) (x1 : (⟨S32x128x512, .f32⟩ : BufTy).Contents (Elt Ideal))
  (x2 : (⟨S32768x1x384, .f32⟩ : BufTy).Contents (Elt Ideal))

/-- Batch b's C, Q and the three weight panels of the re-laid weight array. -/
abbrev Cb (b : Fin 32) : Fin 128 → Fin 1024 → EReal := CQAttn.batchC x0 b
abbrev Qb (b : Fin 32) : Fin 128 → Fin 512 → EReal := CQAttn.batchQ x1 b
abbrev wq (b : Fin 32) : Fin 1024 → Fin 128 → EReal := CQAttn.panel (val_main_v2 (F := Ideal) x2) 0 (by omega) b
abbrev wc (b : Fin 32) : Fin 1024 → Fin 128 → EReal := CQAttn.panel (val_main_v2 (F := Ideal) x2) 128 (by omega) b
abbrev wqc (b : Fin 32) : Fin 1024 → Fin 128 → EReal := CQAttn.panel (val_main_v2 (F := Ideal) x2) 256 (by omega) b

/-- Batch b's score matrix. -/
abbrev scoreOf (b : Fin 32) : Fin 1024 → Fin 512 → EReal :=
  CQAttn.score (Cb x0 b) (Qb x1 b) (wq x2 b) (wc x2 b) (wqc x2 b)

/-- An entry of C named by its coordinates. -/
theorem C_at (j : S32x128x1024.Idx) (b : Fin 32) (d : Fin 128) (c : Fin 1024)
    (h0 : (j 0).val = b.val) (h1 : (j 1).val = d.val) (h2 : (j 2).val = c.val) : x0 j = Cb x0 b d c :=
  congrArg x0 (funext fun a => Fin.ext (by
    match a with
    | ⟨0, _⟩ => exact h0
    | ⟨1, _⟩ => exact h1
    | ⟨2, _⟩ => exact h2))

/-- An entry of Q named by its coordinates. -/
theorem Q_at (j : S32x128x512.Idx) (b : Fin 32) (d : Fin 128) (q : Fin 512)
    (h0 : (j 0).val = b.val) (h1 : (j 1).val = d.val) (h2 : (j 2).val = q.val) : x1 j = Qb x1 b d q :=
  congrArg x1 (funext fun a => Fin.ext (by
    match a with
    | ⟨0, _⟩ => exact h0
    | ⟨1, _⟩ => exact h1
    | ⟨2, _⟩ => exact h2))

/-- An entry of the re-laid weights in the panel that starts at column off. -/
theorem W_at (off : Nat) (hoff : off + 128 ≤ 384) (j : S32x1024x384.Idx) (b : Fin 32) (c : Fin 1024) (d : Fin 128)
    (h0 : (j 0).val = b.val) (h1 : (j 1).val = c.val) (h2 : (j 2).val = off + d.val) :
    val_main_v2 (F := Ideal) x2 j = CQAttn.panel (val_main_v2 (F := Ideal) x2) off hoff b c d :=
  congrArg (val_main_v2 (F := Ideal) x2) (funext fun a => Fin.ext (by
    match a with
    | ⟨0, _⟩ => exact h0
    | ⟨1, _⟩ => exact h1
    | ⟨2, _⟩ => exact h2))

/-- The reference's score stage at (b, c, q). -/
theorem score_apply (b : Fin 32) (c : Fin 1024) (q : Fin 512) :
    val_main_v14 (F := Ideal) x0 x1 x2 (ix3 b c q) = scoreOf x0 x1 x2 b c q := by
  rw [val_main_v14_apply, val_main_v11_apply, val_main_v6_apply, val_main_v10_apply, val_main_v9_apply,
    val_main_v8_apply, val_main_v13_apply]
  simp only [val_main_v3_apply, val_main_v1_apply, val_main_v7_apply, val_main_v4_apply, val_main_v0_apply,
    val_main_v12_apply, val_main_v5_apply, val_main_cst_apply]
  show ((∑ k : Fin 128, _ * _) + (Ideal.ofBits .f32 0x00000000#32 + ∑ k : Fin 128, _ * _)) + ∑ k : Fin 128, (_ * _) * _ = _
  rw [Ideal.ofBits_zero_f32, zero_add]
  unfold scoreOf CQAttn.score CQAttn.bias
  refine congrArg₂ (· + ·) (congrArg₂ (· + ·) (Finset.sum_congr rfl fun k _ => ?_) (Finset.sum_congr rfl fun k _ => ?_))
    (Finset.sum_congr rfl fun k _ => ?_)
  · exact congrArg₂ (· * ·) (W_at x2 0 (by omega) _ b c k rfl rfl (by show k.val = 0 + k.val; omega))
      (Q_at x1 _ b k q rfl rfl rfl)
  · exact congrArg₂ (· * ·) (W_at x2 128 (by omega) _ b c k rfl rfl rfl) (C_at x0 _ b k c rfl rfl rfl)
  · exact congrArg₂ (· * ·) (congrArg₂ (· * ·) (W_at x2 256 (by omega) _ b c k rfl rfl rfl) (C_at x0 _ b k c rfl rfl rfl))
      (Q_at x1 _ b k q rfl rfl rfl)

end Cert.ReferenceIdeal.RefValue

end
-- ==== Proof.RefSoftmax.lean ====
/-
  The reference's two softmaxes of the score, read at an index.

  Over queries: the maximum of row (b, c) of the score (a fold of max from −∞ over q, then once more against −∞), the
  exponential of the score less that maximum, the sum of those exponentials over q (from the pattern of zero), and the
  quotient; each intermediate is kept as a column and spread back, which read at an index only forgets the spread
  coordinate.  Over context: the same along c for a fixed (b, q).  No property of exp, max or the quotient is used: the
  stages are read one by one and are, by their very form, CQAttn.overQueries and CQAttn.overContext of the score.
-/
import proofs.«110918_j15101105013508_2_alg».proof.Proof.RefScore
import Idealize.ShloMosaic.PureOps.Reduce

noncomputable section

namespace Cert.ReferenceIdeal.RefValue

open Cert.ReferenceIdeal Cert.ReferenceIdeal.Gen Cert.ReferenceIdeal.ReadP Idealize.ShloMosaic Idealize.ShloMosaic.ValueIdx

/-- An index of a rank-3 array is the one its coordinates name. -/
theorem idx3_eq {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (by
    match d with
    | ⟨0, _⟩ => exact h0
    | ⟨1, _⟩ => exact h1
    | ⟨2, _⟩ => exact h2)

/-- An index of a rank-2 array is the one its coordinates name. -/
theorem idx2_eq {n0 n1 : Nat} (i : (⟨2, ![n0, n1]⟩ : Shape).Idx) (a : Fin n0) (b : Fin n1)
    (h0 : (i 0).val = a.val) (h1 : (i 1).val = b.val) : i = ix2 a b :=
  funext fun d => Fin.ext (by
    match d with
    | ⟨0, _⟩ => exact h0
    | ⟨1, _⟩ => exact h1)

variable (x0 : (⟨S32x128x1024, .f32⟩ : BufTy).Contents (Elt Ideal)) (x1 : (⟨S32x128x512, .f32⟩ : BufTy).Contents (Elt Ideal))
  (x2 : (⟨S32768x1x384, .f32⟩ : BufTy).Contents (Elt Ideal))

/-! ## Over queries -/

/-- The fold of max over the queries of row (b, c). -/
theorem foldRow_apply (j : S32x1024.Idx) (b : Fin 32) (c : Fin 1024) (h0 : (j 0).val = b.val) (h1 : (j 1).val = c.val) :
    val_main_v15 (F := Ideal) x0 x1 x2 j
      = (Finset.univ : Finset (Fin 512)).fold max CQAttn.negInf (fun q => scoreOf x0 x1 x2 b c q) := by
  obtain rfl := idx2_eq j b c h0 h1
  unfold val_main_v15
  have h : S32x1024x512.Reduces [2] S32x1024 := by decide
  refine (Host.reduce_eq_fold_single FloatOps.maximumf _ _ reducesTo_S32x1024x512_S32x1024_d2 h h_S_ (ix2 b c)).trans ?_
  have hf : (val_main_v14 (F := Ideal) x0 x1 x2 ∘ h.lift (ix2 b c)) = fun q : Fin 512 => scoreOf x0 x1 x2 b c q :=
    funext fun (k : Fin 512) => (congrArg (val_main_v14 (F := Ideal) x0 x1 x2) (idx3_eq _ b c k rfl rfl rfl)).trans
      (score_apply x0 x1 x2 b c k)
  rw [hf]; rfl

/-- The row maximum. -/
theorem rowMax_apply (j : S32x1024.Idx) (b : Fin 32) (c : Fin 1024) (h0 : (j 0).val = b.val) (h1 : (j 1).val = c.val) :
    val_main_v17 (F := Ideal) x0 x1 x2 j = CQAttn.rowMax (scoreOf x0 x1 x2 b) c := by
  rw [val_main_v17_apply, val_main_v16_apply, val_main_cst_1_apply, foldRow_apply x0 x1 x2 j b c h0 h1]
  rfl

/-- The row maximum, kept as a column and spread over the queries. -/
theorem rowMaxSpread_apply (i : S32x1024x512.Idx) (b : Fin 32) (c : Fin 1024) (h0 : (i 0).val = b.val) (h1 : (i 1).val = c.val) :
    val_main_v19 (F := Ideal) x0 x1 x2 i = CQAttn.rowMax (scoreOf x0 x1 x2 b) c := by
  rw [val_main_v19_apply, val_main_v18_apply]
  exact rowMax_apply x0 x1 x2 _ b c h0 h1

/-- The exponential of the score less its row maximum. -/
theorem expRow_apply (i : S32x1024x512.Idx) (b : Fin 32) (c : Fin 1024) (q : Fin 512)
    (h0 : (i 0).val = b.val) (h1 : (i 1).val = c.val) (h2 : (i 2).val = q.val) :
    val_main_v21 (F := Ideal) x0 x1 x2 i
      = Ideal.exp (scoreOf x0 x1 x2 b c q - CQAttn.rowMax (scoreOf x0 x1 x2 b) c) := by
  obtain rfl := idx3_eq i b c q h0 h1 h2
  rw [val_main_v21_apply, val_main_v20_apply, rowMaxSpread_apply x0 x1 x2 _ b c rfl rfl, score_apply]
  rfl

/-- The sum of those exponentials over the queries. -/
theorem sumRow_apply (j : S32x1024.Idx) (b : Fin 32) (c : Fin 1024) (h0 : (j 0).val = b.val) (h1 : (j 1).val = c.val) :
    val_main_v22 (F := Ideal) x0 x1 x2 j
      = ∑ q : Fin 512, Ideal.exp (scoreOf x0 x1 x2 b c q - CQAttn.rowMax (scoreOf x0 x1 x2 b) c) := by
  rw [val_main_v22_apply, val_main_cst_2_apply]
  show Ideal.ofBits .f32 0x00000000#32 + _ = _
  rw [Ideal.ofBits_zero_f32, zero_add]
  exact Finset.sum_congr rfl fun q _ => expRow_apply x0 x1 x2 _ b c q h0 h1 rfl

/-- That sum, kept as a column and spread over the queries. -/
theorem sumRowSpread_apply (i : S32x1024x512.Idx) (b : Fin 32) (c : Fin 1024) (h0 : (i 0).val = b.val) (h1 : (i 1).val = c.val) :
    val_main_v24 (F := Ideal) x0 x1 x2 i
      = ∑ q : Fin 512, Ideal.exp (scoreOf x0 x1 x2 b c q - CQAttn.rowMax (scoreOf x0 x1 x2 b) c) := by
  rw [val_main_v24_apply, val_main_v23_apply]
  exact sumRow_apply x0 x1 x2 _ b c h0 h1

/-- The reference's softmax over queries at (b, c, q). -/
theorem overQueries_apply (b : Fin 32) (c : Fin 1024) (q : Fin 512) :
    val_main_v25 (F := Ideal) x0 x1 x2 (ix3 b c q) = CQAttn.overQueries (scoreOf x0 x1 x2 b) c q := by
  rw [val_main_v25_apply, expRow_apply x0 x1 x2 _ b c q rfl rfl rfl, sumRowSpread_apply x0 x1 x2 _ b c rfl rfl]
  rfl

/-! ## Over context -/

/-- The fold of max over the context positions of column (b, q). -/
theorem foldCol_apply (j : S32x512.Idx) (b : Fin 32) (q : Fin 512) (h0 : (j 0).val = b.val) (h1 : (j 1).val = q.val) :
    val_main_v26 (F := Ideal) x0 x1 x2 j
      = (Finset.univ : Finset (Fin 1024)).fold max CQAttn.negInf (fun c => scoreOf x0 x1 x2 b c q) := by
  obtain rfl := idx2_eq j b q h0 h1
  unfold val_main_v26
  have h : S32x1024x512.Reduces [1] S32x512 := by decide
  refine (Host.reduce_eq_fold_single FloatOps.maximumf _ _ reducesTo_S32x1024x512_S32x512_d1 h h_S_ (ix2 b q)).trans ?_
  have hf : (val_main_v14 (F := Ideal) x0 x1 x2 ∘ h.lift (ix2 b q)) = fun c : Fin 1024 => scoreOf x0 x1 x2 b c q :=
    funext fun (k : Fin 1024) => (congrArg (val_main_v14 (F := Ideal) x0 x1 x2) (idx3_eq _ b k q rfl rfl rfl)).trans
      (score_apply x0 x1 x2 b k q)
  rw [hf]; rfl

/-- The column maximum. -/
theorem colMax_apply (j : S32x512.Idx) (b : Fin 32) (q : Fin 512) (h0 : (j 0).val = b.val) (h1 : (j 1).val = q.val) :
    val_main_v28 (F := Ideal) x0 x1 x2 j = CQAttn.colMax (scoreOf x0 x1 x2 b) q := by
  rw [val_main_v28_apply, val_main_v27_apply, val_main_cst_4_apply, foldCol_apply x0 x1 x2 j b q h0 h1]
  rfl

/-- The column maximum, kept as a row and spread over the context positions. -/
theorem colMaxSpread_apply (i : S32x1024x512.Idx) (b : Fin 32) (q : Fin 512) (h0 : (i 0).val = b.val) (h2 : (i 2).val = q.val) :
    val_main_v30 (F := Ideal) x0 x1 x2 i = CQAttn.colMax (scoreOf x0 x1 x2 b) q := by
  rw [val_main_v30_apply, val_main_v29_apply]
  exact colMax_apply x0 x1 x2 _ b q h0 h2

/-- The exponential of the score less its column maximum. -/
theorem expCol_apply (i : S32x1024x512.Idx) (b : Fin 32) (c : Fin 1024) (q : Fin 512)
    (h0 : (i 0).val = b.val) (h1 : (i 1).val = c.val) (h2 : (i 2).val = q.val) :
    val_main_v32 (F := Ideal) x0 x1 x2 i
      = Ideal.exp (scoreOf x0 x1 x2 b c q - CQAttn.colMax (scoreOf x0 x1 x2 b) q) := by
  obtain rfl := idx3_eq i b c q h0 h1 h2
  rw [val_main_v32_apply, val_main_v31_apply, colMaxSpread_apply x0 x1 x2 _ b q rfl rfl, score_apply]
  rfl

/-- The sum of those exponentials over the context positions. -/
theorem sumCol_apply (j : S32x512.Idx) (b : Fin 32) (q : Fin 512) (h0 : (j 0).val = b.val) (h1 : (j 1).val = q.val) :
    val_main_v33 (F := Ideal) x0 x1 x2 j
      = ∑ c : Fin 1024, Ideal.exp (scoreOf x0 x1 x2 b c q - CQAttn.colMax (scoreOf x0 x1 x2 b) q) := by
  rw [val_main_v33_apply, val_main_cst_5_apply]
  show Ideal.ofBits .f32 0x00000000#32 + _ = _
  rw [Ideal.ofBits_zero_f32, zero_add]
  exact Finset.sum_congr rfl fun c _ => expCol_apply x0 x1 x2 _ b c q h0 rfl h1

/-- That sum, kept as a row and spread over the context positions. -/
theorem sumColSpread_apply (i : S32x1024x512.Idx) (b : Fin 32) (q : Fin 512) (h0 : (i 0).val = b.val) (h2 : (i 2).val = q.val) :
    val_main_v35 (F := Ideal) x0 x1 x2 i
      = ∑ c : Fin 1024, Ideal.exp (scoreOf x0 x1 x2 b c q - CQAttn.colMax (scoreOf x0 x1 x2 b) q) := by
  rw [val_main_v35_apply, val_main_v34_apply]
  exact sumCol_apply x0 x1 x2 _ b q h0 h2

/-- The reference's softmax over context at (b, c, q). -/
theorem overContext_apply (b : Fin 32) (c : Fin 1024) (q : Fin 512) :
    val_main_v36 (F := Ideal) x0 x1 x2 (ix3 b c q) = CQAttn.overContext (scoreOf x0 x1 x2 b) c q := by
  rw [val_main_v36_apply, expCol_apply x0 x1 x2 _ b c q rfl rfl rfl, sumColSpread_apply x0 x1 x2 _ b q rfl rfl]
  rfl

end Cert.ReferenceIdeal.RefValue

end
-- ==== Proof.RefMix.lean ====
/-
  The reference's three contractions after the softmaxes, read at an index.

  With P₁ the softmax of batch b's score over queries and P₂ the one over context: A = P₁ · Qᵀ (context-to-query
  attention), T = P₂ᵀ · Cᵀ, and B = P₁ · T (query-to-context attention, associated so that no CL × CL matrix appears).
  Each host contraction read at an index is the sum over its contracted coordinate of the product of its operands'
  entries; the operands are the earlier stages, so the three are CQAttn.queryMix, contextMix and doubleMix.
-/
import proofs.«110918_j15101105013508_2_alg».proof.Proof.RefSoftmax

noncomputable section

namespace Cert.ReferenceIdeal.RefValue

open Cert.ReferenceIdeal Cert.ReferenceIdeal.Gen Cert.ReferenceIdeal.ReadP Idealize.ShloMosaic Idealize.ShloMosaic.ValueIdx

variable (x0 : (⟨S32x128x1024, .f32⟩ : BufTy).Contents (Elt Ideal)) (x1 : (⟨S32x128x512, .f32⟩ : BufTy).Contents (Elt Ideal))
  (x2 : (⟨S32768x1x384, .f32⟩ : BufTy).Contents (Elt Ideal))

/-- Batch b's two softmaxes. -/
abbrev P₁ (b : Fin 32) : Fin 1024 → Fin 512 → EReal := CQAttn.overQueries (scoreOf x0 x1 x2 b)
abbrev P₂ (b : Fin 32) : Fin 1024 → Fin 512 → EReal := CQAttn.overContext (scoreOf x0 x1 x2 b)

/-- Cᵀ at (b, c, d) is C at (b, d, c). -/
theorem Ct_at (i : S32x1024x128.Idx) (b : Fin 32) (c : Fin 1024) (d : Fin 128)
    (h0 : (i 0).val = b.val) (h1 : (i 1).val = c.val) (h2 : (i 2).val = d.val) :
    val_main_v0 (F := Ideal) x0 i = Cb x0 b d c := by
  rw [val_main_v0_apply]
  exact C_at x0 _ b d c h0 h2 h1

/-- Qᵀ at (b, q, d) is Q at (b, d, q). -/
theorem Qt_at (i : S32x512x128.Idx) (b : Fin 32) (q : Fin 512) (d : Fin 128)
    (h0 : (i 0).val = b.val) (h1 : (i 1).val = q.val) (h2 : (i 2).val = d.val) :
    val_main_v1 (F := Ideal) x1 i = Qb x1 b d q := by
  rw [val_main_v1_apply]
  exact Q_at x1 _ b d q h0 h2 h1

/-- A = P₁ · Qᵀ at (b, c, d). -/
theorem queryMix_apply (i : S32x1024x128.Idx) (b : Fin 32) (c : Fin 1024) (d : Fin 128)
    (h0 : (i 0).val = b.val) (h1 : (i 1).val = c.val) (h2 : (i 2).val = d.val) :
    val_main_v37 (F := Ideal) x0 x1 x2 i = CQAttn.queryMix (Qb x1 b) (P₁ x0 x1 x2 b) c d := by
  obtain rfl := idx3_eq i b c d h0 h1 h2
  rw [val_main_v37_apply]
  exact Finset.sum_congr rfl fun k _ => congrArg₂ (· * ·)
    ((congrArg (val_main_v25 (F := Ideal) x0 x1 x2) (idx3_eq _ b c k rfl rfl rfl)).trans (overQueries_apply x0 x1 x2 b c k))
    (Qt_at x1 _ b k d rfl rfl rfl)

/-- T = P₂ᵀ · Cᵀ at (b, q, d). -/
theorem contextMix_apply (i : S32x512x128.Idx) (b : Fin 32) (q : Fin 512) (d : Fin 128)
    (h0 : (i 0).val = b.val) (h1 : (i 1).val = q.val) (h2 : (i 2).val = d.val) :
    val_main_v38 (F := Ideal) x0 x1 x2 i = CQAttn.contextMix (Cb x0 b) (P₂ x0 x1 x2 b) q d := by
  obtain rfl := idx3_eq i b q d h0 h1 h2
  rw [val_main_v38_apply]
  exact Finset.sum_congr rfl fun k _ => congrArg₂ (· * ·)
    ((congrArg (val_main_v36 (F := Ideal) x0 x1 x2) (idx3_eq _ b k q rfl rfl rfl)).trans (overContext_apply x0 x1 x2 b k q))
    (Ct_at x0 _ b k d rfl rfl rfl)

/-- B = P₁ · T at (b, c, d). -/
theorem doubleMix_apply (i : S32x1024x128.Idx) (b : Fin 32) (c : Fin 1024) (d : Fin 128)
    (h0 : (i 0).val = b.val) (h1 : (i 1).val = c.val) (h2 : (i 2).val = d.val) :
    val_main_v39 (F := Ideal) x0 x1 x2 i = CQAttn.doubleMix (Cb x0 b) (P₁ x0 x1 x2 b) (P₂ x0 x1 x2 b) c d := by
  obtain rfl := idx3_eq i b c d h0 h1 h2
  rw [val_main_v39_apply]
  exact Finset.sum_congr rfl fun k _ => congrArg₂ (· * ·)
    ((congrArg (val_main_v25 (F := Ideal) x0 x1 x2) (idx3_eq _ b c k rfl rfl rfl)).trans (overQueries_apply x0 x1 x2 b c k))
    (contextMix_apply x0 x1 x2 _ b k d rfl rfl rfl)

end Cert.ReferenceIdeal.RefValue

end
-- ==== Proof.RefOut.lean ====
/-
  The reference's result, index by index, is CQAttn.result of the arguments.

  The last two host operations join Cᵀ, A, Cᵀ·A and Cᵀ·B along the feature axis into a [32, 1024, 512] array and
  exchange its last two axes.  Read at (b, r, c) the transposed concatenation is piece ⌊r / 128⌋ at (b, c, r mod 128):
  the four quarters of CQAttn.outRow.
-/
import proofs.«110918_j15101105013508_2_alg».proof.Proof.RefMix
import Idealize.ShloMosaic.Lib.Pipeline.Value

noncomputable section

namespace Cert.ReferenceIdeal.RefValue

open Cert.ReferenceIdeal Cert.ReferenceIdeal.Gen Cert.ReferenceIdeal.ReadP Idealize.ShloMosaic Idealize.ShloMosaic.ValueIdx

variable (x0 : (⟨S32x128x1024, .f32⟩ : BufTy).Contents (Elt Ideal)) (x1 : (⟨S32x128x512, .f32⟩ : BufTy).Contents (Elt Ideal))
  (x2 : (⟨S32768x1x384, .f32⟩ : BufTy).Contents (Elt Ideal))

/-- The joined array at (b, c, r), r in piece k (k · 128 ≤ r < (k + 1) · 128), is that piece at (b, c, r − k · 128). -/
theorem joined_apply (j : S32x1024x512.Idx) (k : Nat) (hk : k < 4) (piece : (⟨S32x1024x128, .f32⟩ : BufTy).Contents (Elt Ideal))
    (hpiece : ([⟨S32x1024x128, val_main_v0 (F := Ideal) x0⟩, ⟨S32x1024x128, val_main_v37 (F := Ideal) x0 x1 x2⟩,
        ⟨S32x1024x128, val_main_v40 (F := Ideal) x0 x1 x2⟩, ⟨S32x1024x128, val_main_v41 (F := Ideal) x0 x1 x2⟩]
          : List ((s : Shape) × (s.Idx → Elt Ideal .f32)))[k]'(by simpa using hk) = ⟨S32x1024x128, piece⟩)
    (d : Fin 128) (hd : k * 128 + d.val = (j 2).val) :
    val_main_v42 (F := Ideal) x0 x1 x2 j = piece (ix3 (j 0) (j 1) d) := by
  unfold val_main_v42
  refine concatenate_apply_piece (2 : Fin 3) _ _ j k (by simpa using hk) S32x1024x128 piece hpiece rfl (k * 128) ?_
    (ix3 (j 0) (j 1) d) ?_ hd
  · match k, hk with
    | 0, _ => rfl
    | 1, _ => rfl
    | 2, _ => rfl
    | 3, _ => rfl
  · intro a ha
    match a, ha with
    | ⟨0, _⟩, _ => rfl
    | ⟨1, _⟩, _ => rfl
    | ⟨2, _⟩, ha => exact absurd rfl ha

/-- The reference's result at every index. -/
theorem result_apply (i : S32x512x1024.Idx) :
    val_main_v43 (F := Ideal) x0 x1 x2 i = CQAttn.result x0 x1 (val_main_v2 (F := Ideal) x2) i := by
  rw [val_main_v43_apply]
  unfold CQAttn.result CQAttn.attend CQAttn.outRow
  have hr : (i 1).val < 512 := (i 1).isLt
  by_cases h0 : (i 1).val < 128
  · rw [dif_pos h0]
    refine (joined_apply x0 x1 x2 (idx_main_v43 i) 0 (by omega) (val_main_v0 (F := Ideal) x0) rfl ⟨(i 1).val, h0⟩ (by show 0 * 128 + (i 1).val = (i 1).val; omega)).trans ?_
    exact Ct_at x0 _ (i 0) (i 2) ⟨(i 1).val, h0⟩ rfl rfl rfl
  · rw [dif_neg h0]
    by_cases h1 : (i 1).val < 256
    · rw [dif_pos h1]
      refine (joined_apply x0 x1 x2 (idx_main_v43 i) 1 (by omega) (val_main_v37 (F := Ideal) x0 x1 x2) rfl ⟨(i 1).val - 128, by omega⟩
        (by show 1 * 128 + ((i 1).val - 128) = (i 1).val; omega)).trans ?_
      exact queryMix_apply x0 x1 x2 _ (i 0) (i 2) ⟨(i 1).val - 128, by omega⟩ rfl rfl rfl
    · rw [dif_neg h1]
      by_cases h2 : (i 1).val < 384
      · rw [dif_pos h2]
        refine (joined_apply x0 x1 x2 (idx_main_v43 i) 2 (by omega) (val_main_v40 (F := Ideal) x0 x1 x2) rfl ⟨(i 1).val - 256, by omega⟩
          (by show 2 * 128 + ((i 1).val - 256) = (i 1).val; omega)).trans ?_
        rw [val_main_v40_apply]
        exact congrArg₂ (· * ·) (Ct_at x0 _ (i 0) (i 2) ⟨(i 1).val - 256, by omega⟩ rfl rfl rfl)
          (queryMix_apply x0 x1 x2 _ (i 0) (i 2) ⟨(i 1).val - 256, by omega⟩ rfl rfl rfl)
      · rw [dif_neg h2]
        refine (joined_apply x0 x1 x2 (idx_main_v43 i) 3 (by omega) (val_main_v41 (F := Ideal) x0 x1 x2) rfl ⟨(i 1).val - 384, by omega⟩
          (by show 3 * 128 + ((i 1).val - 384) = (i 1).val; omega)).trans ?_
        rw [val_main_v41_apply]
        exact congrArg₂ (· * ·) (Ct_at x0 _ (i 0) (i 2) ⟨(i 1).val - 384, by omega⟩ rfl rfl rfl)
          (doubleMix_apply x0 x1 x2 _ (i 0) (i 2) ⟨(i 1).val - 384, by omega⟩ rfl rfl rfl)

end Cert.ReferenceIdeal.RefValue

end
-- ==== Proof.RefResult.lean ====
/-
  The reference's run, with its result named as CQAttn.result of the arguments.

  The composed term the run ends at is, stage for stage, the last stage of the reference read as a function of the three
  arguments; that function is CQAttn.result at every index.
-/
import proofs.«110918_j15101105013508_2_alg».proof.Proof.RefRunP
import proofs.«110918_j15101105013508_2_alg».proof.Proof.RefOut

noncomputable section

namespace Cert.ReferenceIdeal.RefValue

open Cert.ReferenceIdeal Cert.ReferenceIdeal.Gen Cert.ReferenceIdeal.ReadP Idealize.ShloMosaic Idealize.ShloMosaic.TcCoe Idealize.SL.Sem

/-- The run's composed term is the last stage of the reference at the launch contents of the arguments. -/
theorem composed_eq_stage (m : (ℓ : Loc nD τ sig) → Buf (Elt Ideal) ℓ) (c : Dev nD) :
    Cert.ReferenceIdeal.ValueP.res_main_v43 m c
      = val_main_v43 (F := Ideal) (m ((c.tc : Thread nD τ).loc main_arg0)) (m ((c.tc : Thread nD τ).loc main_arg1))
          (m ((c.tc : Thread nD τ).loc main_arg2)) := by
  unfold Cert.ReferenceIdeal.ValueP.res_main_v43; rfl

/-- Every weakly fair execution of the reference terminates with its result at CQAttn.result of the arguments (the
    weights re-laid to [32, 1024, 384]) and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
          = CQAttn.result (m ((c.tc : Thread nD τ).loc main_arg0)) (m ((c.tc : Thread nD τ).loc main_arg1))
              (val_main_v2 (F := Ideal) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((composed_eq_stage m c).trans
      (funext fun i => result_apply _ _ _ i)), (h c).2⟩)
    (Cert.ReferenceIdeal.ValueP.run (F := Ideal) m ρ)

end Cert.ReferenceIdeal.RefValue

end
-- ==== Proof.lean ====
/-
  Context–query attention with a trilinear score: the Pallas kernel against its jnp reference, on the extended reals.

  For each batch both programs form the score  S[c, q] = Σ_d wq[c, d]·Q[d, q] + Σ_d wc[c, d]·C[d, c] + Σ_d (wqc[c, d]·C[d, c])·Q[d, q],
  its softmax P₁ over queries and P₂ over context, A = P₁·Qᵀ, T = P₂ᵀ·Cᵀ, B = P₁·T, and return the four row blocks
  C | Aᵀ | C·Aᵀ | C·Bᵀ of a [4·D, CL] matrix (CQAttn.result, Proof/Spec.lean).  The kernel computes one batch per grid
  point: it fuses the first and third terms of the score into one contraction of depth 2·D over concatenated operands and
  adds the bias last, builds Aᵀ and Bᵀ directly (its contractions have their factors in the other order), and stores the
  four row blocks separately; the reference adds the three terms in order, works on whole [32, …] arrays, and
  concatenates and transposes at the end.  On the extended reals the two are the same function of the arguments: the
  only laws used are commutativity and associativity of + and · and that the zero the host's sums start from is the
  neutral element of +, all of which hold at the infinities too, so the precondition (finite inputs) is never opened.  The number formats (the kernel's bf16 operands) are the identity at this instance.

  The kernel's side: Proof/KLayout, KScore, KSoftmax, KMix (each stored value read at an index), KBlock (the four
  stores as one function of the point's input blocks), KArray (the blocks tile the output array).  The reference's
  side: Proof/RefScore, RefSoftmax, RefMix, RefOut (its stages read at an index), RefResult (its run).  The ideal pass
  rewrote nothing, so the kernel's idealization is its own text and its claim is trivial.
-/
import proofs.«110918_j15101105013508_2_alg».proof.Defs
import proofs.«110918_j15101105013508_2_alg».proof.Proof.Gen.Kernel
import proofs.«110918_j15101105013508_2_alg».proof.Proof.Gen.Kernel.Skeleton
import proofs.«110918_j15101105013508_2_alg».proof.Proof.Gen.Kernel.Launch
import proofs.«110918_j15101105013508_2_alg».proof.Proof.Gen.Kernel.Points
import proofs.«110918_j15101105013508_2_alg».proof.Proof.Gen.Kernel.Frame
import proofs.«110918_j15101105013508_2_alg».proof.Proof.Gen.KernelIdeal
import proofs.«110918_j15101105013508_2_alg».proof.Proof.Gen.KernelIdeal.Skeleton
import proofs.«110918_j15101105013508_2_alg».proof.Proof.Gen.KernelIdeal.Launch
import proofs.«110918_j15101105013508_2_alg».proof.Proof.Gen.KernelIdeal.Points
import proofs.«110918_j15101105013508_2_alg».proof.Proof.Gen.KernelIdeal.Frame
import proofs.«110918_j15101105013508_2_alg».proof.Proof.Gen.KernelIdeal.Value
import proofs.«110918_j15101105013508_2_alg».proof.Proof.Gen.ReferenceIdeal
import proofs.«110918_j15101105013508_2_alg».proof.Proof.Gen.Pre_finite_inputs
import proofs.«110918_j15101105013508_2_alg».proof.Proof.KArray
import proofs.«110918_j15101105013508_2_alg».proof.Proof.RefResult
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Nothing was rewritten when the kernel was idealized. -/
theorem preserves : Cert.preserves_Kernel_KernelIdeal := trivial

/-- From memories that agree on C, Q and the weights, the idealized kernel and the idealized reference both end with
    CQAttn.result of those arguments (the weights re-laid to [32, 1024, 384]) in their result arrays. -/
theorem algebraic : Cert.algebraic_KernelIdeal_ReferenceIdeal := by
  intro m ρ m' ρ' _ hagree
  refine ⟨fun c => Cert.KernelIdeal.Body.wholeResult m c, Cert.KernelIdeal.Body.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2]
  rfl

theorem claim : Cert.Claim := ⟨Cert.Kernel.Gen.facts, Cert.KernelIdeal.Gen.facts, Cert.ReferenceIdeal.Gen.facts,
  Cert.Pre_finite_inputs.Gen.facts, frame_kernel, frame_kernelIdeal, frame_reference, preserves, algebraic⟩

end Cert.Proof

end
